-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x1024 : Shape := ⟨3, ![32, 8, 1024]⟩
abbrev S32x2048x1024 : Shape := ⟨3, ![32, 2048, 1024]⟩
abbrev S1024x1024 : Shape := ⟨2, ![1024, 1024]⟩
abbrev S1024x2048 : Shape := ⟨2, ![1024, 2048]⟩
abbrev S_ : Shape := ⟨0, ![]⟩

class Facts : Prop where
  bcast_S_S32x8x1024 : S_.BroadcastsInDim S32x8x1024 (![] : Fin 0 → Fin S32x8x1024.rank)
  reducesTo_S32x8x1024_S_d0_1_2 : S32x8x1024.ReducesTo [0, 1, 2] S_
  h_S_ : 0 < S_.numel
  bcast_S_S32x2048x1024 : S_.BroadcastsInDim S32x2048x1024 (![] : Fin 0 → Fin S32x2048x1024.rank)
  reducesTo_S32x2048x1024_S_d0_1_2 : S32x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  main_v18

def fn {F : FTy → Type} [FloatOps F] (main_arg0 : FVec F S32x8x1024 .f32) (main_arg1 : FVec F S32x2048x1024 .f32) (main_arg2 : FVec F S1024x1024 .f32) (main_arg3 : FVec F S1024x2048 .f32) : IVec S_ 1 :=
  let main_v0 : FVec F S32x8x1024 .f32 := Host.absf main_arg0
  let main_cst : FVec F S_ .f32 := constant S_ .f32 0x7F800000#32
  let main_v1 : FVec F S32x8x1024 .f32 := broadcastInDim S32x8x1024 ![] bcast_S_S32x8x1024 main_cst
  let main_v2 : IVec S32x8x1024 1 := cmpf .olt main_v0 main_v1
  let main_c : IVec S_ 1 := constantI S_ 1 1#1
  let main_v3 : IVec S_ 1 := (fun x v => Host.reduce IntOp.andi x v reducesTo_S32x8x1024_S_d0_1_2 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_v13 main_v16
-- ==== Kernel.lean ====
abbrev S32x8x1024 : Shape := ⟨3, ![32, 8, 1024]⟩
abbrev S32x2048x1024 : Shape := ⟨3, ![32, 2048, 1024]⟩
abbrev S1024x1024 : Shape := ⟨2, ![1024, 1024]⟩
abbrev S1024x2048 : Shape := ⟨2, ![1024, 2048]⟩
abbrev S256x1024 : Shape := ⟨2, ![256, 1024]⟩
abbrev S32x8x2048 : Shape := ⟨3, ![32, 8, 2048]⟩
abbrev S1x8x1024 : Shape := ⟨3, ![1, 8, 1024]⟩
abbrev S1x2048x1024 : Shape := ⟨3, ![1, 2048, 1024]⟩
abbrev S1x8x2048 : Shape := ⟨3, ![1, 8, 2048]⟩
abbrev S8x1024 : Shape := ⟨2, ![8, 1024]⟩
abbrev S2048x1024 : Shape := ⟨2, ![2048, 1024]⟩
abbrev S8x2048 : Shape := ⟨2, ![8, 2048]⟩
abbrev S8 : Shape := ⟨1, ![8]⟩
abbrev S8x1 : Shape := ⟨2, ![8, 1]⟩

abbrev nBuf : Space → Nat
  | .hbm => 13
  | .vmem => 17
  | .smem => 0
  | _ => 0

abbrev bufTy : (tb : Table) → Fin (tcTables nBuf tb) → BufTy
  | .hbm, ⟨0, _⟩ => ⟨S32x8x1024, .f32⟩
  | .hbm, ⟨1, _⟩ => ⟨S32x2048x1024, .f32⟩
  | .hbm, ⟨2, _⟩ => ⟨S1024x1024, .f32⟩
  | .hbm, ⟨3, _⟩ => ⟨S1024x2048, .f32⟩
  | .hbm, ⟨4, _⟩ => ⟨S256x1024, .f32⟩
  | .hbm, ⟨5, _⟩ => ⟨S256x1024, .f32⟩
  | .hbm, ⟨6, _⟩ => ⟨S32x8x1024, .f32⟩
  | .hbm, ⟨7, _⟩ => ⟨S32x8x2048, .f32⟩
  | .hbm, ⟨8, _⟩ => ⟨S32x8x2048, .f32⟩
  | .hbm, ⟨9, _⟩ => ⟨S32x8x1024, .f32⟩
  | .hbm, ⟨10, _⟩ => ⟨S256x1024, .f32⟩
  | .hbm, ⟨11, _⟩ => ⟨S256x1024, .f32⟩
  | .hbm, ⟨12, _⟩ => ⟨S32x8x1024, .f32⟩
  | .local _ .vmem, ⟨0, _⟩ => ⟨S256x1024, .f32⟩
  | .local _ .vmem, ⟨1, _⟩ => ⟨S1024x1024, .f32⟩
  | .local _ .vmem, ⟨2, _⟩ => ⟨S256x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x2048x1024, .f32⟩
  | .local _ .vmem, ⟨6, _⟩ => ⟨S1x2048x1024, .f32⟩
  | .local _ .vmem, ⟨7, _⟩ => ⟨S1x8x2048, .f32⟩
  | .local _ .vmem, ⟨8, _⟩ => ⟨S1x8x2048, .f32⟩
  | .local _ .vmem, ⟨9, _⟩ => ⟨S1x8x2048, .f32⟩
  | .local _ .vmem, ⟨10, _⟩ => ⟨S1x8x2048, .f32⟩
  | .local _ .vmem, ⟨11, _⟩ => ⟨S1x8x1024, .f32⟩
  | .local _ .vmem, ⟨12, _⟩ => ⟨S1x8x1024, .f32⟩
  | .local _ .vmem, ⟨13, _⟩ => ⟨S256x1024, .f32⟩
  | .local _ .vmem, ⟨14, _⟩ => ⟨S256x1024, .f32⟩
  | .local _ .vmem, ⟨15, _⟩ => ⟨S1024x2048, .f32⟩
  | .local _ .vmem, ⟨16, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem1_0 : DmaSem sig := 14
abbrev cc2_sem2_0 : DmaSem sig := 15
abbrev cc2_sem3_0 : DmaSem sig := 16

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

abbrev stage2_0 : Fin 1 → Memref sig .tc .vmem S256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

class Facts₀ : Prop where
  shapeCasts_S32x8x1024_S256x1024 : S32x8x1024.ShapeCasts S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S256x1024_S32x8x1024 : S256x1024.ShapeCasts S32x8x1024
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  shapeCasts_S8x2048_S1x8x2048 : S8x2048.ShapeCasts S1x8x2048
  reduces_S8x2048_S8 : S8x2048.Reduces [1] S8
  shapeCasts_S8_S8x1 : S8.ShapeCasts S8x1
  broadcasts_S8x1_S8x2048 : S8x1.Broadcasts S8x2048
  shapeCasts_S8x1024_S1x8x1024 : S8x1024.ShapeCasts S1x8x1024
  inb_S1024x2048_S1024x1024_0_0 : ∀ a, (![0, 0] : Fin 2 → Nat) a + S1024x1024.size a ≤ S1024x2048.size a
  inb_S1024x2048_S1024x1024_0_1024 : ∀ a, (![0, 1024] : Fin 2 → Nat) a + S1024x1024.size a ≤ S1024x2048.size a
  dot_S256x1024_S1024x1024_S256x1024_1_1_0_0_n_n_wf : DotDims.WF S256x1024 S1024x1024 S256x1024 [1] [1] [0] [0] [] []
  dot_S8x1024_S2048x1024_S8x2048_1_1_0_0_n_n_wf : DotDims.WF S8x1024 S2048x1024 S8x2048 [1] [1] [0] [0] [] []
  dot_S8x2048_S2048x1024_S8x1024_1_0_0_1_n_n_wf : DotDims.WF S8x2048 S2048x1024 S8x1024 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x1024.size a ≤ S32x8x1024.size a
  hwx1_0 : ∀ i : grid1.Coords, EltTy.bits .f32 = 32 ∨ (Rect.block (s := S32x8x1024) S1x8x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S32x2048x1024.size a
  hwx1_1 : ∀ i : grid1.Coords, EltTy.bits .f32 = 32 ∨ (Rect.block (s := S32x2048x1024) S1x2048x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x2048.size a ≤ S32x8x2048.size a
  hwx1_2 : ∀ i : grid1.Coords, EltTy.bits .f32 = 32 ∨ (Rect.block (s := S32x8x2048) S1x8x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x2048.size a ≤ S32x8x2048.size a
  hwx1_3 : ∀ i : grid1.Coords, EltTy.bits .f32 = 32 ∨ (Rect.block (s := S32x8x2048) S1x8x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x1024.size a ≤ S32x8x1024.size a
  hwx1_4 : ∀ i : grid1.Coords, EltTy.bits .f32 = 32 ∨ (Rect.block (s := S32x8x1024) S1x8x1024.size (cc1_transform_4 i) (hinb1_4 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S8x1024_S2048x1024_S8x2048_1_1_0_0_n_n : DotDims S8x1024 S2048x1024 S8x2048 where
  lhsContracting := [1]
  rhsContracting := [1]
  lhsNonContracting := [0]
  rhsNonContracting := [0]
  lhsBatch := []
  rhsBatch := []
  wf := dot_S8x1024_S2048x1024_S8x2048_1_1_0_0_n_n_wf
def dot_S8x2048_S2048x1024_S8x1024_1_0_0_1_n_n : DotDims S8x2048 S2048x1024 S8x1024 where
  lhsContracting := [1]
  rhsContracting := [0]
  lhsNonContracting := [0]
  rhsNonContracting := [1]
  lhsBatch := []
  rhsBatch := []
  wf := dot_S8x2048_S2048x1024_S8x1024_1_0_0_1_n_n_wf

abbrev win0_0 : Pipeline.Window sig grid0 :=
  Pipeline.Window.whole (Memref.whole main_v0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x8x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S1x8x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S1x8x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_2) S1x8x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.whole (Memref.whole main_v4) false false (stage2_0 0) (sem2_0 0) (Memref.isWhole_whole _) (hstage2_0 0)

abbrev win2_1 : Pipeline.Window sig grid2 :=
  Pipeline.Window.whole (Memref.whole main_v0) false false (stage2_1 0) (sem2_1 0) (Memref.isWhole_whole _) (hstage2_1 0)

abbrev win2_2 : Pipeline.Window sig grid2 :=
  Pipeline.Window.whole (Memref.whole main_arg3) false false (stage2_2 0) (sem2_2 0) (Memref.isWhole_whole _) (hstage2_2 0)

abbrev win2_3 : Pipeline.Window sig grid2 :=
  Pipeline.Window.whole (Memref.whole main_v5) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S32x8x1024 : Shape := ⟨3, ![32, 8, 1024]⟩
abbrev S32x2048x1024 : Shape := ⟨3, ![32, 2048, 1024]⟩
abbrev S1024x1024 : Shape := ⟨2, ![1024, 1024]⟩
abbrev S1024x2048 : Shape := ⟨2, ![1024, 2048]⟩
abbrev S32x8x2048 : Shape := ⟨3, ![32, 8, 2048]⟩
abbrev S_ : Shape := ⟨0, ![]⟩
abbrev S32x8 : Shape := ⟨2, ![32, 8]⟩
abbrev S32x8x1 : Shape := ⟨3, ![32, 8, 1]⟩

abbrev nBuf : Space → Nat
  | .hbm => 26
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x2048x1024, .f32⟩
  | .hbm, ⟨2, _⟩ => ⟨S1024x1024, .f32⟩
  | .hbm, ⟨3, _⟩ => ⟨S1024x2048, .f32⟩
  | .hbm, ⟨4, _⟩ => ⟨S32x8x1024, .f32⟩
  | .hbm, ⟨5, _⟩ => ⟨S32x8x2048, .f32⟩
  | .hbm, ⟨6, _⟩ => ⟨S_, .f32⟩
  | .hbm, ⟨7, _⟩ => ⟨S32x8, .f32⟩
  | .hbm, ⟨8, _⟩ => ⟨S_, .f32⟩
  | .hbm, ⟨9, _⟩ => ⟨S32x8, .f32⟩
  | .hbm, ⟨10, _⟩ => ⟨S32x8, .f32⟩
  | .hbm, ⟨11, _⟩ => ⟨S32x8x1, .f32⟩
  | .hbm, ⟨12, _⟩ => ⟨S32x8x2048, .f32⟩
  | .hbm, ⟨13, _⟩ => ⟨S32x8x2048, .f32⟩
  | .hbm, ⟨14, _⟩ => ⟨S32x8x2048, .f32⟩
  | .hbm, ⟨15, _⟩ => ⟨S_, .f32⟩
  | .hbm, ⟨16, _⟩ => ⟨S32x8, .f32⟩
  | .hbm, ⟨17, _⟩ => ⟨S32x8x1, .f32⟩
  | .hbm, ⟨18, _⟩ => ⟨S32x8x1, .f32⟩
  | .hbm, ⟨19, _⟩ => ⟨S32x8x2048, .f32⟩
  | .hbm, ⟨20, _⟩ => ⟨S32x8x2048, .f32⟩
  | .hbm, ⟨21, _⟩ => ⟨S32x8x2048, .f32⟩
  | .hbm, ⟨22, _⟩ => ⟨S32x8x1024, .f32⟩
  | .hbm, ⟨23, _⟩ => ⟨S32x8x2048, .f32⟩
  | .hbm, ⟨24, _⟩ => ⟨S32x8x1024, .f32⟩
  | .hbm, ⟨25, _⟩ => ⟨S32x8x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩

abbrev nD : Nat := 1
abbrev τ : Topo := Topo.v7x

variable {F : FTy → Type} [FloatOps F]

class Facts₀ : Prop where
  reducesTo_S32x8x2048_S32x8_d2 : S32x8x2048.ReducesTo [2] S32x8
  h_S_ : 0 < S_.numel
  bcast_S_S32x8 : S_.BroadcastsInDim S32x8 (![] : Fin 0 → Fin S32x8.rank)
  bcast_S32x8_S32x8x1_0_1 : S32x8.BroadcastsInDim S32x8x1 (![0, 1] : Fin 2 → Fin S32x8x1.rank)
  bcast_S32x8x1_S32x8x2048_0_1_2 : S32x8x1.BroadcastsInDim S32x8x2048 (![0, 1, 2] : Fin 3 → Fin S32x8x2048.rank)
  concatenates_S32x8x1024_S32x8x1024_S32x8x2048_d2 : Shape.Concatenates [S32x8x1024, S32x8x1024] S32x8x2048 2
  dot_S32x8x1024_S1024x1024_S32x8x1024_2_1_01_0_n_n_wf : DotDims.WF S32x8x1024 S1024x1024 S32x8x1024 [2] [1] [0, 1] [0] [] []
  dot_S32x8x1024_S32x2048x1024_S32x8x2048_2_2_1_1_0_0_wf : DotDims.WF S32x8x1024 S32x2048x1024 S32x8x2048 [2] [2] [1] [1] [0] [0]
  dot_S32x8x2048_S32x2048x1024_S32x8x1024_2_1_1_2_0_0_wf : DotDims.WF S32x8x2048 S32x2048x1024 S32x8x1024 [2] [1] [1] [2] [0] [0]
  dot_S32x8x2048_S1024x2048_S32x8x1024_2_1_01_0_n_n_wf : DotDims.WF S32x8x2048 S1024x2048 S32x8x1024 [2] [1] [0, 1] [0] [] []

variable [Facts₀]

def dot_S32x8x1024_S1024x1024_S32x8x1024_2_1_01_0_n_n : DotDims S32x8x1024 S1024x1024 S32x8x1024 where
  lhsContracting := [2]
  rhsContracting := [1]
  lhsNonContracting := [0, 1]
  rhsNonContracting := [0]
  lhsBatch := []
  rhsBatch := []
  wf := dot_S32x8x1024_S1024x1024_S32x8x1024_2_1_01_0_n_n_wf
def dot_S32x8x1024_S32x2048x1024_S32x8x2048_2_2_1_1_0_0 : DotDims S32x8x1024 S32x2048x1024 S32x8x2048 where
  lhsContracting := [2]
  rhsContracting := [2]
  lhsNonContracting := [1]
  rhsNonContracting := [1]
  lhsBatch := [0]
  rhsBatch := [0]
  wf := dot_S32x8x1024_S32x2048x1024_S32x8x2048_2_2_1_1_0_0_wf
def dot_S32x8x2048_S32x2048x1024_S32x8x1024_2_1_1_2_0_0 : DotDims S32x8x2048 S32x2048x1024 S32x8x1024 where
  lhsContracting := [2]
  rhsContracting := [1]
  lhsNonContracting := [1]
  rhsNonContracting := [2]
  lhsBatch := [0]
  rhsBatch := [0]
  wf := dot_S32x8x2048_S32x2048x1024_S32x8x1024_2_1_1_2_0_0_wf
def dot_S32x8x2048_S1024x2048_S32x8x1024_2_1_01_0_n_n : DotDims S32x8x2048 S1024x2048 S32x8x1024 where
  lhsContracting := [2]
  rhsContracting := [1]
  lhsNonContracting := [0, 1]
  rhsNonContracting := [0]
  lhsBatch := []
  rhsBatch := []
  wf := dot_S32x8x2048_S1024x2048_S32x8x1024_2_1_01_0_n_n_wf

class Facts : Prop extends Facts₀ where

variable [Facts]
-- ==== Proof.KRun.lean ====
/-
  The idealized kernel's whole run, with its three results named.

  The program is a chain of seven segments: a reshape, the input projection, a reshape, the attention core over the
  32 batches, a reshape, the output projection, a reshape.  The generated frame runs that chain and ends with every
  buffer that outlives the program at the contents the chain's last boundary names; here the same run is read at the
  three result buffers as well as at the four arguments.
-/
import proofs.«135022_g850403525219_cont_9to1_m_489_3_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the three results end at what the last
    boundary of the chain holds for them, and the four arguments end as launched. -/
theorem run : θ_run defs (onTc (τ := τ) (main (F := F))) ⟨m, fun _ => 0, ρ⟩ (fun r => ∀ c : Dev nD,
      r.2.mem ((c.tc : Thread nD τ).loc main_v6) = W7 m ρ c (Proc.devRef .tc main_v6)
      ∧ r.2.mem ((c.tc : Thread nD τ).loc main_v3_1) = W7 m ρ c (Proc.devRef .tc main_v3_1)
      ∧ r.2.mem ((c.tc : Thread nD τ).loc main_v3_0) = W7 m ρ c (Proc.devRef .tc main_v3_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v6 (by decide)),
       h c _ (mem_uc main_v3_1 (by decide)),
       h c _ (mem_uc main_v3_0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Results

end
-- ==== Proof.LibDotNT.lean ====
/-
  A matrix product against a transposed right operand, read at an index.

  For dimension numbers `D` of a product of an `M × K` operand with an `N × K` operand into `M × N` that contract ONE
  axis — the second axis of each operand, no batch axis (`x · wᵀ`) — the sum over `D`'s contraction index that the ideal
  instance gives for a `tpu.matmul` and for a host `dot_general` alike is the textbook one: entry `(r, c)` is the sum over
  `k : Fin K` of the left operand at `(r, k)` times the right operand at `(c, k)`.  What makes a given `D` of this kind is
  stated as four facts about the coordinates of its operand indices, which a concrete record proves by unfolding its
  lists of axes.
-/
import Idealize.ShloMosaic.Lib.ValueIdx
import Idealize.ShloMosaic.PureOps.Ideal.Laws

noncomputable section

open scoped BigOperators

namespace Cert.Lib.DotNT

open Idealize.ShloMosaic Idealize.ShloMosaic.ValueIdx

/-- The contraction sum re-indexed by the contracted axis' coordinate: at the output index `j` the left operand is
    read along its row `j 0` and the right operand along its row `j 1`. -/
theorem sum_nt {M K N : Nat}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (l : (⟨2, ![M, K]⟩ : Shape).Idx → EReal) (r : (⟨2, ![N, K]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 (j 1) k := funext fun a => Fin.ext (by
    match a with
    | ⟨0, _⟩ => exact r0 _ _
    | ⟨1, _⟩ => exact (r1 _ _).trans hk)
  exact congrArg₂ (fun a b : EReal => a * b) (congrArg l el) (congrArg r er)

/-- A `tpu.matmul` with such dimension numbers, at the ideal instance: the accumulator's entry plus that sum. -/
theorem matmul_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (acc : FVec Ideal (⟨2, ![M, N]⟩ : Shape) .f32) (j : (⟨2, ![M, N]⟩ : Shape).Idx) :
    FloatOps.matmul D prec l r acc j = acc j + ∑ k : Fin K, l (ix2 (j 0) k) * r (ix2 (j 1) k) := by
  rw [Ideal.matmul_apply]
  exact congrArg (acc j + ·) (sum_nt D hr hs l0 l1 r0 r1 l r j)

/-- Into the zero accumulator: just the sum. -/
theorem matmul_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 (j 1) k) := by
  rw [Ideal.matmul_constant_zero_apply]
  exact sum_nt D hr hs l0 l1 r0 r1 l r j

/-- A host `dot_general` with such dimension numbers, at the ideal instance, is the same sum, whatever its precision
    and schedule keys. -/
theorem dotGeneral_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision) (sched : HostSchedule)
    (l : FVec Ideal (⟨2, ![M, K]⟩ : Shape) φ₁) (r : FVec Ideal (⟨2, ![N, K]⟩ : Shape) φ₂)
    (j : (⟨2, ![M, N]⟩ : Shape).Idx) :
    FloatOps.dotGeneral D prec sched l r j = ∑ k : Fin K, l (ix2 (j 0) k) * r (ix2 (j 1) k) := by
  rw [Ideal.dotGeneral_apply]
  exact sum_nt D hr hs l0 l1 r0 r1 l r j

end Cert.Lib.DotNT

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.KPay.lean ====
/-
  What the three kernel bodies compute, entry by entry, on the extended reals.

  * The input projection stores, at row r and column e, the sum over d of x[r,d] * Win[e,d].
  * The attention core, for one batch, stores the scores sc[p,s] = sum over e of h[p,e] * M[s,e]; the weights
    exp (sc[p,s] - max_s sc[p,s]) / sum_s' exp (sc[p,s'] - max_s sc[p,s]); and the context
    sum over s of weight[p,s] * M[s,d].
  * The output projection stores tanh (sum_d c[r,d] * Wl[o,d] + sum_d x[r,d] * Wr[o,d]) for the left and right
    halves Wl, Wr of the output weights.

  Each matrix product is into the zero accumulator, so it is the plain sum over the contracted axis; the row
  maximum is the fold of max from minus infinity and the row sum the plain sum; the casts that add or drop a
  leading axis of extent one and the broadcast of a column along its row only move entries.
-/
import proofs.«135022_g850403525219_cont_9to1_m_489_3_alg».proof.Proof.Gen.KernelIdeal.Skeleton
import proofs.«135022_g850403525219_cont_9to1_m_489_3_alg».proof.Proof.LibDotNT
import proofs.«135022_g850403525219_cont_9to1_m_489_3_alg».proof.Proof.LibPlainDot
import proofs.«135022_g850403525219_cont_9to1_m_489_3_alg».proof.Proof.LibKeepdims
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-! ## The three contractions -/

/-- rows against rows: [256,1024] x [1024,1024] -> [256,1024], both second axes contracted -/
abbrev DProj := dot_S256x1024_S1024x1024_S256x1024_1_1_0_0_n_n
/-- the scores: [8,1024] x [2048,1024] -> [8,2048], both second axes contracted -/
abbrev DScore := dot_S8x1024_S2048x1024_S8x2048_1_1_0_0_n_n
/-- the context: [8,2048] x [2048,1024] -> [8,1024], the plain product -/
abbrev DCtx := dot_S8x2048_S2048x1024_S8x1024_1_0_0_1_n_n

theorem dproj_l0 (j : S256x1024.Idx) (q : DProj.contr.Idx) : (DProj.lhsIdx j q 0).val = (j 0).val := by
  unfold DotDims.lhsIdx
  rw [dif_neg (show ¬(0 : Fin S256x1024.rank) ∈ DProj.lhsBatch by decide), dif_pos (show (0 : Fin S256x1024.rank) ∈ DProj.lhsNonContracting by decide)]
  rfl
theorem dproj_l1 (j : S256x1024.Idx) (q : DProj.contr.Idx) : (DProj.lhsIdx j q 1).val = (q ⟨0, by decide⟩).val :=
  DProj.lhsIdx_val_of_single rfl j q
theorem dproj_r0 (j : S256x1024.Idx) (q : DProj.contr.Idx) : (DProj.rhsIdx j q 0).val = (j 1).val := by
  unfold DotDims.rhsIdx
  rw [dif_neg (show ¬(0 : Fin S1024x1024.rank) ∈ DProj.rhsBatch by decide), dif_pos (show (0 : Fin S1024x1024.rank) ∈ DProj.rhsNonContracting by decide)]
  rfl
theorem dproj_r1 (j : S256x1024.Idx) (q : DProj.contr.Idx) : (DProj.rhsIdx j q 1).val = (q ⟨0, by decide⟩).val :=
  DProj.rhsIdx_val_of_single rfl j q

/-- A projection against a row-major weight matrix, into the zero accumulator, at (r, e). -/
theorem proj_apply (l : FVec Ideal S256x1024 .f32) (w : FVec Ideal S1024x1024 .f32) (r : Fin 256) (e : Fin 1024) :
    FloatOps.matmul DProj none l w (constant (F := Ideal) S256x1024 .f32 0x00000000#32) (ix2 r e)
      = ∑ d : Fin 1024, l (ix2 r d) * w (ix2 e d) :=
  Cert.Lib.DotNT.matmul_zero_apply DProj rfl rfl dproj_l0 dproj_l1 dproj_r0 dproj_r1 none l w (ix2 r e)

theorem dscore_l0 (j : S8x2048.Idx) (q : DScore.contr.Idx) : (DScore.lhsIdx j q 0).val = (j 0).val := by
  unfold DotDims.lhsIdx
  rw [dif_neg (show ¬(0 : Fin S8x1024.rank) ∈ DScore.lhsBatch by decide), dif_pos (show (0 : Fin S8x1024.rank) ∈ DScore.lhsNonContracting by decide)]
  rfl
theorem dscore_l1 (j : S8x2048.Idx) (q : DScore.contr.Idx) : (DScore.lhsIdx j q 1).val = (q ⟨0, by decide⟩).val :=
  DScore.lhsIdx_val_of_single rfl j q
theorem dscore_r0 (j : S8x2048.Idx) (q : DScore.contr.Idx) : (DScore.rhsIdx j q 0).val = (j 1).val := by
  unfold DotDims.rhsIdx
  rw [dif_neg (show ¬(0 : Fin S2048x1024.rank) ∈ DScore.rhsBatch by decide), dif_pos (show (0 : Fin S2048x1024.rank) ∈ DScore.rhsNonContracting by decide)]
  rfl
theorem dscore_r1 (j : S8x2048.Idx) (q : DScore.contr.Idx) : (DScore.rhsIdx j q 1).val = (q ⟨0, by decide⟩).val :=
  DScore.rhsIdx_val_of_single rfl j q

theorem score_apply (l : FVec Ideal S8x1024 .f32) (w : FVec Ideal S2048x1024 .f32) (p : Fin 8) (s : Fin 2048) :
    FloatOps.matmul DScore none l w (constant (F := Ideal) S8x2048 .f32 0x00000000#32) (ix2 p s)
      = ∑ e : Fin 1024, l (ix2 p e) * w (ix2 s e) :=
  Cert.Lib.DotNT.matmul_zero_apply DScore rfl rfl dscore_l0 dscore_l1 dscore_r0 dscore_r1 none l w (ix2 p s)

theorem dctx_l0 (j : S8x1024.Idx) (q : DCtx.contr.Idx) : (DCtx.lhsIdx j q 0).val = (j 0).val := by
  unfold DotDims.lhsIdx
  rw [dif_neg (show ¬(0 : Fin S8x2048.rank) ∈ DCtx.lhsBatch by decide), dif_pos (show (0 : Fin S8x2048.rank) ∈ DCtx.lhsNonContracting by decide)]
  rfl
theorem dctx_l1 (j : S8x1024.Idx) (q : DCtx.contr.Idx) : (DCtx.lhsIdx j q 1).val = (q ⟨0, by decide⟩).val :=
  DCtx.lhsIdx_val_of_single rfl j q
theorem dctx_r0 (j : S8x1024.Idx) (q : DCtx.contr.Idx) : (DCtx.rhsIdx j q 0).val = (q ⟨0, by decide⟩).val :=
  DCtx.rhsIdx_val_of_single rfl j q
theorem dctx_r1 (j : S8x1024.Idx) (q : DCtx.contr.Idx) : (DCtx.rhsIdx j q 1).val = (j 1).val := by
  unfold DotDims.rhsIdx
  rw [dif_neg (show ¬(1 : Fin S2048x1024.rank) ∈ DCtx.rhsBatch by decide), dif_pos (show (1 : Fin S2048x1024.rank) ∈ DCtx.rhsNonContracting by decide)]
  rfl

theorem ctx_apply (l : FVec Ideal S8x2048 .f32) (w : FVec Ideal S2048x1024 .f32) (p : Fin 8) (d : Fin 1024) :
    FloatOps.matmul DCtx none l w (constant (F := Ideal) S8x1024 .f32 0x00000000#32) (ix2 p d)
      = ∑ s : Fin 2048, l (ix2 p s) * w (ix2 s d) :=
  Cert.Lib.PlainDot.matmul_zero_apply DCtx rfl rfl dctx_l0 dctx_l1 dctx_r0 dctx_r1 none l w (ix2 p d)

/-! ## The input projection's body -/

theorem k0_pay1_apply (v0 : Vec Ideal S256x1024 .f32) (v2 : Vec Ideal S1024x1024 .f32) (r : Fin 256) (e : Fin 1024) :
    k0_pay1 (F := Ideal) v0 v2 (ix2 r e) = ∑ d : Fin 1024, v0 (ix2 r d) * v2 (ix2 e d) := by
  unfold k0_pay1
  refine (proj_apply _ v2 r e).trans ?_
  rw [shapeCast_self]

/-! ## The attention core's body -/

/-- Dropping the leading unit axis of a [1, a, b] block. -/
theorem drop_lead {a b : ℕ} (v : (⟨3, ![1, a, b]⟩ : Shape).Idx → EReal) (h : (⟨3, ![1, a, b]⟩ : Shape).ShapeCasts ⟨2, ![a, b]⟩)
    (p : Fin a) (q : Fin b) : shapeCast ⟨2, ![a, b]⟩ v h (ix2 p q) = v (ix3 (0 : Fin 1) p q) := by
  refine shapeCast_apply v h (ix2 p q) (ix3 (0 : Fin 1) p q) ?_
  rw [Shape.rowMajor_val_three, Shape.rowMajor_val_two]
  show (0 * a + p.val) * b + q.val = p.val * b + q.val
  rw [Nat.zero_mul, Nat.zero_add]

/-- Adding a leading unit axis to an [a, b] value. -/
theorem add_lead {a b : ℕ} (v : (⟨2, ![a, b]⟩ : Shape).Idx → EReal) (h : (⟨2, ![a, b]⟩ : Shape).ShapeCasts ⟨3, ![1, a, b]⟩)
    (p : Fin a) (q : Fin b) : shapeCast ⟨3, ![1, a, b]⟩ v h (ix3 (0 : Fin 1) p q) = v (ix2 p q) := by
  refine shapeCast_apply v h (ix3 (0 : Fin 1) p q) (ix2 p q) ?_
  rw [Shape.rowMajor_val_three, Shape.rowMajor_val_two]
  show p.val * b + q.val = (0 * a + p.val) * b + q.val
  rw [Nat.zero_mul, Nat.zero_add]

theorem k1_pay1_apply (v2 : Vec Ideal S1x2048x1024 .f32) (s : Fin 2048) (e : Fin 1024) :
    k1_pay1 (F := Ideal) v2 (ix2 s e) = v2 (ix3 (0 : Fin 1) s e) := by
  unfold k1_pay1
  exact drop_lead v2 _ s e

/-- The scores of one batch. -/
theorem k1_pay2_apply (v0 : Vec Ideal S1x8x1024 .f32) (v2 : Vec Ideal S1x2048x1024 .f32) (p : Fin 8) (s : Fin 2048) :
    k1_pay2 (F := Ideal) v0 v2 (ix2 p s) = ∑ e : Fin 1024, v0 (ix3 (0 : Fin 1) p e) * v2 (ix3 (0 : Fin 1) s e) := by
  unfold k1_pay2
  refine (score_apply _ _ p s).trans ?_
  refine Finset.sum_congr rfl fun e _ => ?_
  rw [k1_pay1_apply]
  exact congrArg (· * _) (drop_lead v0 _ p e)

theorem k1_pay3_apply (v0 : Vec Ideal S1x8x1024 .f32) (v2 : Vec Ideal S1x2048x1024 .f32) (p : Fin 8) (s : Fin 2048) :
    k1_pay3 (F := Ideal) v0 v2 (ix3 (0 : Fin 1) p s) = k1_pay2 (F := Ideal) v0 v2 (ix2 p s) := by
  unfold k1_pay3
  exact add_lead _ _ p s

/-- The row maxima of an [8, 2048] value, from minus infinity. -/
def rowMaxVec (sc : FVec Ideal S8x2048 .f32) : FVec Ideal S8 .f32 :=
  multiReduction .maximumf [1] S8 sc 0xFF800000#32 Facts₀.reduces_S8x2048_S8 (.inl rfl) rfl
/-- The row sums of an [8, 2048] value, from zero. -/
def rowSumVec (ex : FVec Ideal S8x2048 .f32) : FVec Ideal S8 .f32 :=
  multiReduction .add [1] S8 ex 0x00000000#32 Facts₀.reduces_S8x2048_S8 (.inl rfl) rfl
/-- A length-8 vector as a column, repeated along each row. -/
def alongRows (v : FVec Ideal S8 .f32) : FVec Ideal S8x2048 .f32 :=
  broadcastTo S8x2048 (shapeCast S8x1 v Facts₀.shapeCasts_S8_S8x1) Facts₀.broadcasts_S8x1_S8x2048

theorem lift_row (h : S8x2048.Reduces [1] S8) (p : Fin 8) (s : Fin 2048) : h.lift (ix1 p) s = ix2 p s :=
  funext fun a => Fin.ext (by match a with | ⟨0, _⟩ => rfl | ⟨1, _⟩ => rfl)

theorem neg_inf : Ideal.ofBits .f32 0xFF800000#32 = (⊥ : EReal) := by simp [Ideal.ofBits, Ideal.ieee]

theorem rowMaxVec_apply (sc : FVec Ideal S8x2048 .f32) (p : Fin 8) :
    rowMaxVec sc (ix1 p) = (Finset.univ : Finset (Fin 2048)).fold max ⊥ (fun s => sc (ix2 p s)) := by
  unfold rowMaxVec
  refine (Ideal.multiReduction_maximumf_single sc _ Facts₀.reduces_S8x2048_S8 _ _ (ix1 p)).trans ?_
  show (Finset.univ : Finset (Fin 2048)).fold max (Ideal.ofBits .f32 0xFF800000#32) (fun s => sc (Facts₀.reduces_S8x2048_S8.lift (ix1 p) s)) = _
  rw [neg_inf]
  exact congrArg (fun f : Fin 2048 → EReal => (Finset.univ : Finset (Fin 2048)).fold max ⊥ f) (funext fun s => congrArg sc (lift_row _ p s))

theorem rowSumVec_apply (ex : FVec Ideal S8x2048 .f32) (p : Fin 8) :
    rowSumVec ex (ix1 p) = ∑ s : Fin 2048, ex (ix2 p s) := by
  unfold rowSumVec
  refine (Ideal.multiReduction_add_single ex _ Facts₀.reduces_S8x2048_S8 _ _ (ix1 p)).trans ?_
  show ∑ s : Fin 2048, ex (Facts₀.reduces_S8x2048_S8.lift (ix1 p) s) = _
  exact Finset.sum_congr rfl fun s _ => congrArg ex (lift_row _ p s)

theorem alongRows_apply (v : FVec Ideal S8 .f32) (p : Fin 8) (s : Fin 2048) : alongRows v (ix2 p s) = v (ix1 p) := by
  unfold alongRows
  exact (Keepdims.broadcastTo_a1_ab_apply _ Facts₀.broadcasts_S8x1_S8x2048 p s).trans (Keepdims.shapeCast_a_a1_apply v Facts₀.shapeCasts_S8_S8x1 p)

/-- The softmax of each row of an [8, 2048] value, as the body computes it. -/
def rowSoftmax (sc : FVec Ideal S8x2048 .f32) : FVec Ideal S8x2048 .f32 :=
  divf (exp (subf sc (alongRows (rowMaxVec sc)))) (alongRows (rowSumVec (exp (subf sc (alongRows (rowMaxVec sc))))))

theorem k1_pay4_eq (v0 : Vec Ideal S1x8x1024 .f32) (v2 : Vec Ideal S1x2048x1024 .f32) :
    k1_pay4 (F := Ideal) v0 v2 = rowSoftmax (k1_pay2 (F := Ideal) v0 v2) := rfl

/-- The maximum of row p. -/
def rmaxOf (sc : FVec Ideal S8x2048 .f32) (p : Fin 8) : EReal :=
  (Finset.univ : Finset (Fin 2048)).fold max ⊥ (fun s => sc (ix2 p s))

theorem rowSoftmax_apply (sc : FVec Ideal S8x2048 .f32) (p : Fin 8) (s : Fin 2048) :
    rowSoftmax sc (ix2 p s)
      = Ideal.div (Ideal.exp (sc (ix2 p s) - rmaxOf sc p)) (∑ s' : Fin 2048, Ideal.exp (sc (ix2 p s') - rmaxOf sc p)) := by
  unfold rowSoftmax
  show Ideal.div (Ideal.exp (sc (ix2 p s) - alongRows (rowMaxVec sc) (ix2 p s)))
      (alongRows (rowSumVec (exp (subf sc (alongRows (rowMaxVec sc))))) (ix2 p s)) = _
  rw [alongRows_apply, alongRows_apply, rowMaxVec_apply, rowSumVec_apply]
  refine congrArg _ (Finset.sum_congr rfl fun s' _ => ?_)
  show Ideal.exp (sc (ix2 p s') - alongRows (rowMaxVec sc) (ix2 p s')) = _
  rw [alongRows_apply, rowMaxVec_apply]
  rfl

theorem k1_pay5_apply (v0 : Vec Ideal S1x8x1024 .f32) (v2 : Vec Ideal S1x2048x1024 .f32) (p : Fin 8) (s : Fin 2048) :
    k1_pay5 (F := Ideal) v0 v2 (ix3 (0 : Fin 1) p s) = k1_pay4 (F := Ideal) v0 v2 (ix2 p s) := by
  unfold k1_pay5
  exact add_lead _ _ p s

theorem k1_pay6_apply (v0 : Vec Ideal S1x8x1024 .f32) (v2 : Vec Ideal S1x2048x1024 .f32) (p : Fin 8) (d : Fin 1024) :
    k1_pay6 (F := Ideal) v0 v2 (ix3 (0 : Fin 1) p d)
      = ∑ s : Fin 2048, k1_pay4 (F := Ideal) v0 v2 (ix2 p s) * v2 (ix3 (0 : Fin 1) s d) := by
  unfold k1_pay6
  refine (add_lead _ _ p d).trans ?_
  refine (ctx_apply _ _ p d).trans ?_
  exact Finset.sum_congr rfl fun s _ => congrArg (_ * ·) (k1_pay1_apply v2 s d)

/-! ## The output projection's body -/

theorem k2_pay1_apply (v0 v1 : Vec Ideal S1024x1024 .f32) (v2 v5 : Vec Ideal S256x1024 .f32) (r : Fin 256) (o : Fin 1024) :
    k2_pay1 (F := Ideal) v0 v1 v2 v5 (ix2 r o)
      = Ideal.tanh ((∑ d : Fin 1024, v2 (ix2 r d) * v0 (ix2 o d)) + ∑ d : Fin 1024, v5 (ix2 r d) * v1 (ix2 o d)) := by
  unfold k2_pay1
  show Ideal.tanh (FloatOps.matmul DProj none (shapeCast S256x1024 v2 Facts₀.shapeCasts_S256x1024_S256x1024) v0 (constant (F := Ideal) S256x1024 .f32 0x00000000#32) (ix2 r o)
      + FloatOps.matmul DProj none (shapeCast S256x1024 v5 Facts₀.shapeCasts_S256x1024_S256x1024) v1 (constant (F := Ideal) S256x1024 .f32 0x00000000#32) (ix2 r o)) = _
  rw [proj_apply, proj_apply, shapeCast_self, shapeCast_self]

end Cert.KernelIdeal.Pay

end
-- ==== Proof.KReg0.lean ====
/-
  The input projection, from its block to its array.

  The call has no grid: its one point fetches both operands whole, and writes the result back whole.  So the array
  it leaves is, entry by entry, what the body computes from the two arrays as the call finds them:
  at (r, e) the sum over d of xa[r,d] * wa[e,d].
-/
import proofs.«135022_g850403525219_cont_9to1_m_489_3_alg».proof.Proof.Gen.KernelIdeal.Frame
import proofs.«135022_g850403525219_cont_9to1_m_489_3_alg».proof.Proof.KPay
import Idealize.ShloMosaic.Lib.Pipeline.Value
import Idealize.ShloMosaic.Lib.ValueIdx

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The projection of every row of `xa` against every row of `wa`. -/
def G (xa : S256x1024.Idx → EReal) (wa : S1024x1024.Idx → EReal) : S256x1024.Idx → EReal :=
  fun i => ∑ d : Fin 1024, xa (ix2 (i 0) d) * wa (ix2 (i 1) d)

theorem hz : (![0, 0] : Fin 2 → Nat) = fun _ => 0 := funext fun a => by fin_cases a <;> rfl

/-- Every window of the call sits at block index zero on both axes. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first operand's block is the array itself. -/
theorem read_x (c : Dev nD) (t : Fin cfg0.N) (r : Fin 256) (d : Fin 1024) :
    iblk0 V c 0 t (ix2 r d) = V c main_v0 (ix2 r d) := by
  show V c main_v0 (((cfg0.win 0).blk t).view.emb (ix2 r d)) = V c main_v0 (ix2 r d)
  obtain ⟨e0, e1, -⟩ := idx_facts t
  refine congrArg _ (funext fun a => Fin.ext ?_)
  match a with
  | ⟨0, _⟩ => show win0_0.index t (0 : Fin 2) * 256 + 1 * r.val = r.val; omega
  | ⟨1, _⟩ => show win0_0.index t (1 : Fin 2) * 1024 + 1 * d.val = d.val; omega

/-- The second operand's block is the array itself. -/
theorem read_w (c : Dev nD) (t : Fin cfg0.N) (e : Fin 1024) (d : Fin 1024) :
    iblk0 V c 1 t (ix2 e d) = V c main_arg2 (ix2 e d) := by
  show V c main_arg2 (((cfg0.win 1).blk t).view.emb (ix2 e d)) = V c main_arg2 (ix2 e d)
  obtain ⟨-, -, e2, e3, -⟩ := idx_facts t
  refine congrArg _ (funext fun a => Fin.ext ?_)
  match a with
  | ⟨0, _⟩ => show win0_1.index t (0 : Fin 2) * 1024 + 1 * e.val = e.val; omega
  | ⟨1, _⟩ => show win0_1.index t (1 : Fin 2) * 1024 + 1 * d.val = d.val; omega

/-- The result's block sits in its array where its own coordinates say. -/
theorem emb_out (t : Fin cfg0.N) (r : Fin 256) (e : Fin 1024) :
    ((cfg0.win 2).blk t).view.emb (ix2 r e) = ix2 r e := by
  obtain ⟨-, -, -, -, e4, e5⟩ := idx_facts t
  refine funext fun a => Fin.ext ?_
  match a with
  | ⟨0, _⟩ => show win0_2.index t (0 : Fin 2) * 256 + 1 * r.val = r.val; omega
  | ⟨1, _⟩ => show win0_2.index t (1 : Fin 2) * 1024 + 1 * e.val = e.val; omega

/-- What the one point writes back is the block of `G` of the two arrays. -/
theorem flushed_eq (c : Dev nD) (t : Fin cfg0.N) :
    (dat0 V c).flushed 2 t = ((cfg0.win 2).blk t).view.read (Elt Ideal) (G (V c main_v0) (V c main_arg2)) := by
  show (cfg0.win 2).cut (grid0.coords t) ((dat0 V c).after 2 t) = _
  rw [after0_2]
  unfold out0_2
  rw [View.canon_unit_zero hz]
  simp only [View.ld_unit_zero (S := S256x1024) hz, View.ld_unit_zero (S := S1024x1024) hz]
  funext j
  obtain ⟨r, e, rfl⟩ : ∃ (r : Fin 256) (e : Fin 1024), j = ix2 r e := ⟨j 0, j 1, eq_ix2 j⟩
  show k0_pay1 (F := Ideal) (iblk0 V c 0 t) (iblk0 V c 1 t) (ix2 r e)
    = G (V c main_v0) (V c main_arg2) (((cfg0.win 2).blk t).view.emb (ix2 r e))
  rw [emb_out t r e]
  refine (Pay.k0_pay1_apply (iblk0 V c 0 t) (iblk0 V c 1 t) r e).trans ?_
  exact Finset.sum_congr rfl fun d _ => by rw [read_x V c t r d, read_w V c t e d]

theorem mem_blk (t : Fin cfg0.N) (i : S256x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v1).slice (win0_2.rect t)).set ↔ _
  rw [View.set_slice_whole, Rect.mem_set_unit]
  exact Iff.rfl

/-- The one block covers the array. -/
theorem cover (i : S256x1024.Idx) : ∃ t : Fin cfg0.N, (cfg0.win 2).flush t = true ∧ i ∈ ((cfg0.win 2).blk t).view.set := by
  refine ⟨t0_0, flush0_2 t0_0, ?_⟩
  rw [mem_blk]
  obtain ⟨-, -, -, -, e4, e5⟩ := idx_facts t0_0
  have h0 : (i 0).val < 256 := (i 0).isLt
  have h1 : (i 1).val < 1024 := (i 1).isLt
  intro a
  match a with
  | ⟨0, _⟩ => show win0_2.index t0_0 (0 : Fin 2) * 256 ≤ (i 0).val ∧ (i 0).val < win0_2.index t0_0 (0 : Fin 2) * 256 + 256; omega
  | ⟨1, _⟩ => show win0_2.index t0_0 (1 : Fin 2) * 1024 ≤ (i 1).val ∧ (i 1).val < win0_2.index t0_0 (1 : Fin 2) * 1024 + 1024; omega

/-- THE ARRAY the input projection leaves: `G` of the two arrays it found. -/
theorem final (c : Dev nD) : (dat0 V c).arrAt 2 cfg0.N = G (V c main_v0) (V c main_arg2) :=
  (dat0 V c).arrAt_eq_of_cover 2 _ (fun t _ => flushed_eq V c t) cover

end Cert.KernelIdeal.Reg0

end
-- ==== Proof.KReg1.lean ====
/-
  The attention core, from its blocks to its arrays.

  The call runs over 32 points, one per batch.  Point b fetches batch b's 8 projected queries and its 2048 memory
  rows, and writes back batch b's scores, attention weights and context rows.  The blocks of each result tile its
  array (batch b's block is exactly the entries whose first coordinate is b), so each array ends, entry by entry, at
  what the body computes from the two arrays as the call finds them:

    scores[b,p,s]  = sum over e of h[b,p,e] * M[b,s,e]
    weights[b,p,s] = the softmax of row (b,p) of the scores, at s
    context[b,p,d] = sum over s of weights[b,p,s] * M[b,s,d].
-/
import proofs.«135022_g850403525219_cont_9to1_m_489_3_alg».proof.Proof.Gen.KernelIdeal.Frame
import proofs.«135022_g850403525219_cont_9to1_m_489_3_alg».proof.Proof.KPay
import Idealize.ShloMosaic.Lib.Pipeline.Value
import Idealize.ShloMosaic.Lib.ValueIdx

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The three arrays as functions of the two operands -/

/-- The score of query (b, p) against memory row s. -/
def scB (h3 : S32x8x1024.Idx → EReal) (mb : S32x2048x1024.Idx → EReal) (b : Fin 32) (p : Fin 8) (s : Fin 2048) : EReal :=
  ∑ e : Fin 1024, h3 (ix3 b p e) * mb (ix3 b s e)

/-- Batch b's scores as an [8, 2048] value. -/
def scV (h3 : S32x8x1024.Idx → EReal) (mb : S32x2048x1024.Idx → EReal) (b : Fin 32) : FVec Ideal S8x2048 .f32 :=
  fun j => scB h3 mb b (j 0) (j 1)

def Gs (h3 : S32x8x1024.Idx → EReal) (mb : S32x2048x1024.Idx → EReal) : S32x8x2048.Idx → EReal :=
  fun i => scB h3 mb (i 0) (i 1) (i 2)

def Ga (h3 : S32x8x1024.Idx → EReal) (mb : S32x2048x1024.Idx → EReal) : S32x8x2048.Idx → EReal :=
  fun i => Pay.rowSoftmax (scV h3 mb (i 0)) (ix2 (i 1) (i 2))

def Gc (h3 : S32x8x1024.Idx → EReal) (mb : S32x2048x1024.Idx → EReal) : S32x8x1024.Idx → EReal :=
  fun i => ∑ s : Fin 2048, Pay.rowSoftmax (scV h3 mb (i 0)) (ix2 (i 1) s) * mb (ix3 (i 0) s (i 2))

/-! ## The grid -/

theorem hz : (![0, 0, 0] : Fin 3 → Nat) = fun _ => 0 := funext fun a => by fin_cases a <;> rfl

/-- The batch a grid point works on. -/
def bOf (t : Fin cfg1.N) : Fin 32 := ⟨t.val, lt_of_lt_of_eq t.isLt N_1⟩

/-- Every window's block index at point t is (t, 0, 0). -/
theorem idx_facts : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

/-! ## The operands' blocks -/

theorem read_h (c : Dev nD) (t : Fin cfg1.N) (p : Fin 8) (e : Fin 1024) :
    iblk1 V c 0 t (ix3 (0 : Fin 1) p e) = V c main_v2 (ix3 (bOf t) p e) := by
  show V c main_v2 (((cfg1.win 0).blk t).view.emb (ix3 (0 : Fin 1) p e)) = V c main_v2 (ix3 (bOf t) p e)
  have f := idx_facts t
  refine congrArg _ (funext fun a => Fin.ext ?_)
  match a with
  | ⟨0, _⟩ => show win1_0.index t (0 : Fin 3) * 1 + 1 * 0 = t.val; omega
  | ⟨1, _⟩ => show win1_0.index t (1 : Fin 3) * 8 + 1 * p.val = p.val; omega
  | ⟨2, _⟩ => show win1_0.index t (2 : Fin 3) * 1024 + 1 * e.val = e.val; omega

theorem read_m (c : Dev nD) (t : Fin cfg1.N) (s : Fin 2048) (e : Fin 1024) :
    iblk1 V c 1 t (ix3 (0 : Fin 1) s e) = V c main_arg1 (ix3 (bOf t) s e) := by
  show V c main_arg1 (((cfg1.win 1).blk t).view.emb (ix3 (0 : Fin 1) s e)) = V c main_arg1 (ix3 (bOf t) s e)
  have f := idx_facts t
  refine congrArg _ (funext fun a => Fin.ext ?_)
  match a with
  | ⟨0, _⟩ => show win1_1.index t (0 : Fin 3) * 1 + 1 * 0 = t.val; omega
  | ⟨1, _⟩ => show win1_1.index t (1 : Fin 3) * 2048 + 1 * s.val = s.val; omega
  | ⟨2, _⟩ => show win1_1.index t (2 : Fin 3) * 1024 + 1 * e.val = e.val; omega

/-- The body's scores at point t are batch t's scores. -/
theorem pay2_block (c : Dev nD) (t : Fin cfg1.N) (p : Fin 8) (s : Fin 2048) :
    k1_pay2 (F := Ideal) (iblk1 V c 0 t) (iblk1 V c 1 t) (ix2 p s) = scB (V c main_v2) (V c main_arg1) (bOf t) p s :=
  (Pay.k1_pay2_apply (iblk1 V c 0 t) (iblk1 V c 1 t) p s).trans
    (Finset.sum_congr rfl fun e _ => by rw [read_h V c t p e, read_m V c t s e])

theorem pay2_vec (c : Dev nD) (t : Fin cfg1.N) :
    k1_pay2 (F := Ideal) (iblk1 V c 0 t) (iblk1 V c 1 t) = scV (V c main_v2) (V c main_arg1) (bOf t) := by
  funext j
  obtain ⟨p, s, rfl⟩ : ∃ (p : Fin 8) (s : Fin 2048), j = ix2 p s := ⟨j 0, j 1, eq_ix2 j⟩
  exact pay2_block V c t p s

/-! ## The three output windows -/

theorem emb_s (t : Fin cfg1.N) (p : Fin 8) (q : Fin 2048) :
    ((cfg1.win 2).blk t).view.emb (ix3 (0 : Fin 1) p q) = ix3 (bOf t) p q := by
  have e := idx_facts t
  refine funext fun a => Fin.ext ?_
  match a with
  | ⟨0, _⟩ => show win1_2.index t (0 : Fin 3) * 1 + 1 * 0 = t.val; omega
  | ⟨1, _⟩ => show win1_2.index t (1 : Fin 3) * 8 + 1 * p.val = p.val; omega
  | ⟨2, _⟩ => show win1_2.index t (2 : Fin 3) * 2048 + 1 * q.val = q.val; omega

theorem mem_blk_s (t : Fin cfg1.N) (i : S32x8x2048.Idx) :
    i ∈ ((cfg1.win 2).blk t).view.set ↔ ∀ a : Fin 3, win1_2.index t a * S1x8x2048.size a ≤ (i a).val ∧ (i a).val < win1_2.index t a * S1x8x2048.size a + S1x8x2048.size a := by
  show i ∈ ((View.whole main_v3_0).slice (win1_2.rect t)).set ↔ _
  rw [View.set_slice_whole, Rect.mem_set_unit]
  exact Iff.rfl

/-- Batch `i 0`'s block covers index `i`. -/
theorem cover_s (i : S32x8x2048.Idx) : ∃ t : Fin cfg1.N, (cfg1.win 2).flush t = true ∧ i ∈ ((cfg1.win 2).blk t).view.set := by
  have h0 : (i 0).val < 32 := (i 0).isLt
  have h1 : (i 1).val < 8 := (i 1).isLt
  have h2 : (i 2).val < 2048 := (i 2).isLt
  obtain ⟨t, ht⟩ : ∃ t : Fin cfg1.N, t.val = (i 0).val := ⟨⟨(i 0).val, lt_of_lt_of_eq h0 N_1.symm⟩, rfl⟩
  refine ⟨t, flush1_2 t, ?_⟩
  rw [mem_blk_s]
  have e := idx_facts t
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 8 ≤ (i 1).val ∧ (i 1).val < win1_2.index t (1 : Fin 3) * 8 + 8; omega
  | ⟨2, _⟩ => show win1_2.index t (2 : Fin 3) * 2048 ≤ (i 2).val ∧ (i 2).val < win1_2.index t (2 : Fin 3) * 2048 + 2048; omega

theorem emb_a (t : Fin cfg1.N) (p : Fin 8) (q : Fin 2048) :
    ((cfg1.win 3).blk t).view.emb (ix3 (0 : Fin 1) p q) = ix3 (bOf t) p q := by
  have e := idx_facts t
  refine funext fun a => Fin.ext ?_
  match a with
  | ⟨0, _⟩ => show win1_3.index t (0 : Fin 3) * 1 + 1 * 0 = t.val; omega
  | ⟨1, _⟩ => show win1_3.index t (1 : Fin 3) * 8 + 1 * p.val = p.val; omega
  | ⟨2, _⟩ => show win1_3.index t (2 : Fin 3) * 2048 + 1 * q.val = q.val; omega

theorem mem_blk_a (t : Fin cfg1.N) (i : S32x8x2048.Idx) :
    i ∈ ((cfg1.win 3).blk t).view.set ↔ ∀ a : Fin 3, win1_3.index t a * S1x8x2048.size a ≤ (i a).val ∧ (i a).val < win1_3.index t a * S1x8x2048.size a + S1x8x2048.size a := by
  show i ∈ ((View.whole main_v3_1).slice (win1_3.rect t)).set ↔ _
  rw [View.set_slice_whole, Rect.mem_set_unit]
  exact Iff.rfl

/-- Batch `i 0`'s block covers index `i`. -/
theorem cover_a (i : S32x8x2048.Idx) : ∃ t : Fin cfg1.N, (cfg1.win 3).flush t = true ∧ i ∈ ((cfg1.win 3).blk t).view.set := by
  have h0 : (i 0).val < 32 := (i 0).isLt
  have h1 : (i 1).val < 8 := (i 1).isLt
  have h2 : (i 2).val < 2048 := (i 2).isLt
  obtain ⟨t, ht⟩ : ∃ t : Fin cfg1.N, t.val = (i 0).val := ⟨⟨(i 0).val, lt_of_lt_of_eq h0 N_1.symm⟩, rfl⟩
  refine ⟨t, flush1_3 t, ?_⟩
  rw [mem_blk_a]
  have e := idx_facts t
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 8 ≤ (i 1).val ∧ (i 1).val < win1_3.index t (1 : Fin 3) * 8 + 8; omega
  | ⟨2, _⟩ => show win1_3.index t (2 : Fin 3) * 2048 ≤ (i 2).val ∧ (i 2).val < win1_3.index t (2 : Fin 3) * 2048 + 2048; omega

theorem emb_c (t : Fin cfg1.N) (p : Fin 8) (q : Fin 1024) :
    ((cfg1.win 4).blk t).view.emb (ix3 (0 : Fin 1) p q) = ix3 (bOf t) p q := by
  have e := idx_facts t
  refine funext fun a => Fin.ext ?_
  match a with
  | ⟨0, _⟩ => show win1_4.index t (0 : Fin 3) * 1 + 1 * 0 = t.val; omega
  | ⟨1, _⟩ => show win1_4.index t (1 : Fin 3) * 8 + 1 * p.val = p.val; omega
  | ⟨2, _⟩ => show win1_4.index t (2 : Fin 3) * 1024 + 1 * q.val = q.val; omega

theorem mem_blk_c (t : Fin cfg1.N) (i : S32x8x1024.Idx) :
    i ∈ ((cfg1.win 4).blk t).view.set ↔ ∀ a : Fin 3, win1_4.index t a * S1x8x1024.size a ≤ (i a).val ∧ (i a).val < win1_4.index t a * S1x8x1024.size a + S1x8x1024.size a := by
  show i ∈ ((View.whole main_v3_2).slice (win1_4.rect t)).set ↔ _
  rw [View.set_slice_whole, Rect.mem_set_unit]
  exact Iff.rfl

/-- Batch `i 0`'s block covers index `i`. -/
theorem cover_c (i : S32x8x1024.Idx) : ∃ t : Fin cfg1.N, (cfg1.win 4).flush t = true ∧ i ∈ ((cfg1.win 4).blk t).view.set := by
  have h0 : (i 0).val < 32 := (i 0).isLt
  have h1 : (i 1).val < 8 := (i 1).isLt
  have h2 : (i 2).val < 1024 := (i 2).isLt
  obtain ⟨t, ht⟩ : ∃ t : Fin cfg1.N, t.val = (i 0).val := ⟨⟨(i 0).val, lt_of_lt_of_eq h0 N_1.symm⟩, rfl⟩
  refine ⟨t, flush1_4 t, ?_⟩
  rw [mem_blk_c]
  have e := idx_facts t
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 8 ≤ (i 1).val ∧ (i 1).val < win1_4.index t (1 : Fin 3) * 8 + 8; omega
  | ⟨2, _⟩ => show win1_4.index t (2 : Fin 3) * 1024 ≤ (i 2).val ∧ (i 2).val < win1_4.index t (2 : Fin 3) * 1024 + 1024; omega

/-- What point t writes back to the scores is batch t's block of `Gs`. -/
theorem flushed_s (c : Dev nD) (t : Fin cfg1.N) :
    (dat1 V c).flushed 2 t = ((cfg1.win 2).blk t).view.read (Elt Ideal) (Gs (V c main_v2) (V c main_arg1)) := by
  show (cfg1.win 2).cut (grid1.coords t) ((dat1 V c).after 2 t) = _
  rw [after1_2]
  unfold out1_2
  rw [View.canon_unit_zero hz]
  simp only [View.ld_unit_zero (S := S1x8x1024) hz, View.ld_unit_zero (S := S1x2048x1024) hz]
  funext j
  obtain ⟨z, p, s, rfl⟩ : ∃ (z : Fin 1) (p : Fin 8) (s : Fin 2048), j = ix3 z p s := ⟨j 0, j 1, j 2, eq_ix3 j⟩
  obtain rfl : z = 0 := Subsingleton.elim _ _
  show k1_pay3 (F := Ideal) (iblk1 V c 0 t) (iblk1 V c 1 t) (ix3 (0 : Fin 1) p s)
    = Gs (V c main_v2) (V c main_arg1) (((cfg1.win 2).blk t).view.emb (ix3 (0 : Fin 1) p s))
  rw [emb_s t p s]
  exact (Pay.k1_pay3_apply (iblk1 V c 0 t) (iblk1 V c 1 t) p s).trans (pay2_block V c t p s)

/-- What point t writes back to the weights is batch t's block of `Ga`. -/
theorem flushed_a (c : Dev nD) (t : Fin cfg1.N) :
    (dat1 V c).flushed 3 t = ((cfg1.win 3).blk t).view.read (Elt Ideal) (Ga (V c main_v2) (V c main_arg1)) := by
  show (cfg1.win 3).cut (grid1.coords t) ((dat1 V c).after 3 t) = _
  rw [after1_3]
  unfold out1_3
  rw [View.canon_unit_zero hz]
  simp only [View.ld_unit_zero (S := S1x8x1024) hz, View.ld_unit_zero (S := S1x2048x1024) hz]
  funext j
  obtain ⟨z, p, s, rfl⟩ : ∃ (z : Fin 1) (p : Fin 8) (s : Fin 2048), j = ix3 z p s := ⟨j 0, j 1, j 2, eq_ix3 j⟩
  obtain rfl : z = 0 := Subsingleton.elim _ _
  show k1_pay5 (F := Ideal) (iblk1 V c 0 t) (iblk1 V c 1 t) (ix3 (0 : Fin 1) p s)
    = Ga (V c main_v2) (V c main_arg1) (((cfg1.win 3).blk t).view.emb (ix3 (0 : Fin 1) p s))
  rw [emb_a t p s]
  refine (Pay.k1_pay5_apply (iblk1 V c 0 t) (iblk1 V c 1 t) p s).trans ?_
  rw [Pay.k1_pay4_eq, pay2_vec V c t]
  rfl

/-- What point t writes back to the context is batch t's block of `Gc`. -/
theorem flushed_c (c : Dev nD) (t : Fin cfg1.N) :
    (dat1 V c).flushed 4 t = ((cfg1.win 4).blk t).view.read (Elt Ideal) (Gc (V c main_v2) (V c main_arg1)) := by
  show (cfg1.win 4).cut (grid1.coords t) ((dat1 V c).after 4 t) = _
  rw [after1_4]
  unfold out1_4
  rw [View.canon_unit_zero hz]
  simp only [View.ld_unit_zero (S := S1x8x1024) hz, View.ld_unit_zero (S := S1x2048x1024) hz]
  funext j
  obtain ⟨z, p, d, rfl⟩ : ∃ (z : Fin 1) (p : Fin 8) (d : Fin 1024), j = ix3 z p d := ⟨j 0, j 1, j 2, eq_ix3 j⟩
  obtain rfl : z = 0 := Subsingleton.elim _ _
  show k1_pay6 (F := Ideal) (iblk1 V c 0 t) (iblk1 V c 1 t) (ix3 (0 : Fin 1) p d)
    = Gc (V c main_v2) (V c main_arg1) (((cfg1.win 4).blk t).view.emb (ix3 (0 : Fin 1) p d))
  rw [emb_c t p d]
  refine (Pay.k1_pay6_apply (iblk1 V c 0 t) (iblk1 V c 1 t) p d).trans ?_
  refine Finset.sum_congr rfl fun s _ => ?_
  rw [Pay.k1_pay4_eq, pay2_vec V c t, read_m V c t s d]

/-- THE ARRAYS the attention core leaves. -/
theorem final_s (c : Dev nD) : (dat1 V c).arrAt 2 cfg1.N = Gs (V c main_v2) (V c main_arg1) :=
  (dat1 V c).arrAt_eq_of_cover 2 _ (fun t _ => flushed_s V c t) cover_s
theorem final_a (c : Dev nD) : (dat1 V c).arrAt 3 cfg1.N = Ga (V c main_v2) (V c main_arg1) :=
  (dat1 V c).arrAt_eq_of_cover 3 _ (fun t _ => flushed_a V c t) cover_a
theorem final_c (c : Dev nD) : (dat1 V c).arrAt 4 cfg1.N = Gc (V c main_v2) (V c main_arg1) :=
  (dat1 V c).arrAt_eq_of_cover 4 _ (fun t _ => flushed_c V c t) cover_c

end Cert.KernelIdeal.Reg1

end
-- ==== Proof.KReg2.lean ====
/-
  The output projection, from its block to its array.

  The call has no grid: its one point fetches the context rows, the query rows and the output weights whole, reads
  the weights as their left and right column halves, and writes the result back whole.  So the array it leaves is,
  at (r, o), tanh of the sum over d of ca[r,d] * wo[o,d] plus the sum over d of xa[r,d] * wo[o,1024+d].
-/
import proofs.«135022_g850403525219_cont_9to1_m_489_3_alg».proof.Proof.Gen.KernelIdeal.Frame
import proofs.«135022_g850403525219_cont_9to1_m_489_3_alg».proof.Proof.KPay
import Idealize.ShloMosaic.Lib.Pipeline.Value
import Idealize.ShloMosaic.Lib.ValueIdx

set_option maxRecDepth 16384

noncomputable section

open scoped BigOperators

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The output projection of context rows `ca` and query rows `xa` against the weights `wo`. -/
def G (ca xa : S256x1024.Idx → EReal) (wo : S1024x2048.Idx → EReal) : S256x1024.Idx → EReal :=
  fun i => Ideal.tanh ((∑ d : Fin 1024, ca (ix2 (i 0) d) * wo (ix2 (i 1) (Fin.castAdd 1024 d)))
    + ∑ d : Fin 1024, xa (ix2 (i 0) d) * wo (ix2 (i 1) (Fin.natAdd 1024 d)))

theorem hz : (![0, 0] : Fin 2 → Nat) = fun _ => 0 := funext fun a => by fin_cases a <;> rfl

/-- Every window of the call sits at block index zero on both axes. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

theorem read_c (c : Dev nD) (t : Fin cfg2.N) (r : Fin 256) (d : Fin 1024) :
    iblk2 V c 0 t (ix2 r d) = V c main_v4 (ix2 r d) := by
  show V c main_v4 (((cfg2.win 0).blk t).view.emb (ix2 r d)) = V c main_v4 (ix2 r d)
  obtain ⟨e0, e1, -⟩ := idx_facts t
  refine congrArg _ (funext fun a => Fin.ext ?_)
  match a with
  | ⟨0, _⟩ => show win2_0.index t (0 : Fin 2) * 256 + 1 * r.val = r.val; omega
  | ⟨1, _⟩ => show win2_0.index t (1 : Fin 2) * 1024 + 1 * d.val = d.val; omega

theorem read_x (c : Dev nD) (t : Fin cfg2.N) (r : Fin 256) (d : Fin 1024) :
    iblk2 V c 1 t (ix2 r d) = V c main_v0 (ix2 r d) := by
  show V c main_v0 (((cfg2.win 1).blk t).view.emb (ix2 r d)) = V c main_v0 (ix2 r d)
  obtain ⟨-, -, e2, e3, -⟩ := idx_facts t
  refine congrArg _ (funext fun a => Fin.ext ?_)
  match a with
  | ⟨0, _⟩ => show win2_1.index t (0 : Fin 2) * 256 + 1 * r.val = r.val; omega
  | ⟨1, _⟩ => show win2_1.index t (1 : Fin 2) * 1024 + 1 * d.val = d.val; omega

/-- The left half of the weights' block: columns 0 to 1023. -/
theorem read_wl (c : Dev nD) (t : Fin cfg2.N) (o : Fin 1024) (d : Fin 1024) :
    View.ld (iblk2 V c 2 t) r2_0 (ix2 o d) = V c main_arg3 (ix2 o (Fin.castAdd 1024 d)) := by
  show V c main_arg3 (((cfg2.win 2).blk t).view.emb (r2_0.idx (ix2 o d))) = V c main_arg3 (ix2 o (Fin.castAdd 1024 d))
  obtain ⟨-, -, -, -, e4, e5, -⟩ := idx_facts t
  refine congrArg _ (funext fun a => Fin.ext ?_)
  match a with
  | ⟨0, _⟩ => show win2_2.index t (0 : Fin 2) * 1024 + 1 * (0 + 1 * o.val) = o.val; omega
  | ⟨1, _⟩ => show win2_2.index t (1 : Fin 2) * 2048 + 1 * (0 + 1 * d.val) = d.val; omega

/-- The right half of the weights' block: columns 1024 to 2047. -/
theorem read_wr (c : Dev nD) (t : Fin cfg2.N) (o : Fin 1024) (d : Fin 1024) :
    View.ld (iblk2 V c 2 t) r2_1 (ix2 o d) = V c main_arg3 (ix2 o (Fin.natAdd 1024 d)) := by
  show V c main_arg3 (((cfg2.win 2).blk t).view.emb (r2_1.idx (ix2 o d))) = V c main_arg3 (ix2 o (Fin.natAdd 1024 d))
  obtain ⟨-, -, -, -, e4, e5, -⟩ := idx_facts t
  refine congrArg _ (funext fun a => Fin.ext ?_)
  match a with
  | ⟨0, _⟩ => show win2_2.index t (0 : Fin 2) * 1024 + 1 * (0 + 1 * o.val) = o.val; omega
  | ⟨1, _⟩ => show win2_2.index t (1 : Fin 2) * 2048 + 1 * (1024 + 1 * d.val) = 1024 + d.val; omega

theorem emb_out (t : Fin cfg2.N) (r : Fin 256) (o : Fin 1024) :
    ((cfg2.win 3).blk t).view.emb (ix2 r o) = ix2 r o := by
  obtain ⟨-, -, -, -, -, -, e6, e7⟩ := idx_facts t
  refine funext fun a => Fin.ext ?_
  match a with
  | ⟨0, _⟩ => show win2_3.index t (0 : Fin 2) * 256 + 1 * r.val = r.val; omega
  | ⟨1, _⟩ => show win2_3.index t (1 : Fin 2) * 1024 + 1 * o.val = o.val; omega

/-- What the one point writes back is the block of `G` of the three arrays. -/
theorem flushed_eq (c : Dev nD) (t : Fin cfg2.N) :
    (dat2 V c).flushed 3 t
      = ((cfg2.win 3).blk t).view.read (Elt Ideal) (G (V c main_v4) (V c main_v0) (V c main_arg3)) := by
  show (cfg2.win 3).cut (grid2.coords t) ((dat2 V c).after 3 t) = _
  rw [after2_3]
  unfold out2_3
  rw [View.canon_unit_zero hz]
  simp only [View.ld_unit_zero (S := S256x1024) hz]
  funext j
  obtain ⟨r, o, rfl⟩ : ∃ (r : Fin 256) (o : Fin 1024), j = ix2 r o := ⟨j 0, j 1, eq_ix2 j⟩
  show k2_pay1 (F := Ideal) (View.ld (iblk2 V c 2 t) r2_0) (View.ld (iblk2 V c 2 t) r2_1) (iblk2 V c 0 t) (iblk2 V c 1 t) (ix2 r o)
    = G (V c main_v4) (V c main_v0) (V c main_arg3) (((cfg2.win 3).blk t).view.emb (ix2 r o))
  rw [emb_out t r o]
  refine (Pay.k2_pay1_apply (View.ld (iblk2 V c 2 t) r2_0) (View.ld (iblk2 V c 2 t) r2_1) (iblk2 V c 0 t) (iblk2 V c 1 t) r o).trans ?_
  refine congrArg Ideal.tanh (congrArg₂ (· + ·) ?_ ?_)
  · exact Finset.sum_congr rfl fun d _ => by rw [read_c V c t r d, read_wl V c t o d]
  · exact Finset.sum_congr rfl fun d _ => by rw [read_x V c t r d, read_wr V c t o d]

theorem mem_blk (t : Fin cfg2.N) (i : S256x1024.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v5).slice (win2_3.rect t)).set ↔ _
  rw [View.set_slice_whole, Rect.mem_set_unit]
  exact Iff.rfl

theorem cover (i : S256x1024.Idx) : ∃ t : Fin cfg2.N, (cfg2.win 3).flush t = true ∧ i ∈ ((cfg2.win 3).blk t).view.set := by
  refine ⟨t2_0, flush2_3 t2_0, ?_⟩
  rw [mem_blk]
  obtain ⟨-, -, -, -, -, -, e6, e7⟩ := idx_facts t2_0
  have h0 : (i 0).val < 256 := (i 0).isLt
  have h1 : (i 1).val < 1024 := (i 1).isLt
  intro a
  match a with
  | ⟨0, _⟩ => show win2_3.index t2_0 (0 : Fin 2) * 256 ≤ (i 0).val ∧ (i 0).val < win2_3.index t2_0 (0 : Fin 2) * 256 + 256; omega
  | ⟨1, _⟩ => show win2_3.index t2_0 (1 : Fin 2) * 1024 ≤ (i 1).val ∧ (i 1).val < win2_3.index t2_0 (1 : Fin 2) * 1024 + 1024; omega

/-- THE ARRAY the output projection leaves: `G` of the three arrays it found. -/
theorem final (c : Dev nD) : (dat2 V c).arrAt 3 cfg2.N = G (V c main_v4) (V c main_v0) (V c main_arg3) :=
  (dat2 V c).arrAt_eq_of_cover 3 _ (fun t _ => flushed_eq V c t) cover

end Cert.KernelIdeal.Reg2

end
-- ==== Proof.KFold.lean ====
/-
  The contents of the three result buffers at the end of the idealized kernel's run, read back through the chain.

  The run's boundaries alternate between a reshape and a call.  A reshape writes one buffer (its result: the
  operand's entries in row-major order at the new shape) and leaves every other buffer as it was; a call writes its
  result arrays (what the previous modules read off its blocks) and leaves every other buffer as it was.  Walking
  back from the last boundary:

    result 0 (the output)  = reshape of the output projection's array, whose operands are the reshape of the
                             attention core's context array, the reshape of the queries, and the output weights;
    result 1 (the weights) = the attention core's second array, untouched by what follows;
    result 2 (the scores)  = the attention core's first array, untouched by what follows;

  and the attention core's operands are the reshape of the input projection's array and the memory bank, the input
  projection's the reshape of the queries and the input weights.
-/
import proofs.«135022_g850403525219_cont_9to1_m_489_3_alg».proof.Proof.KReg0
import proofs.«135022_g850403525219_cont_9to1_m_489_3_alg».proof.Proof.KReg1
import proofs.«135022_g850403525219_cont_9to1_m_489_3_alg».proof.Proof.KReg2
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-- Each of the four reshapes leaves every buffer but its result as it was. -/
theorem keeps0 (Wv : Valuation τ sig (Elt Ideal)) {b : Ref sig .tc} (hb : b ≠ main_v0) :
    StableHlo.after (hostOps0 (F := Ideal)) Wv (Proc.devRef .tc b) = Wv (Proc.devRef .tc b) := by
  simp only [StableHlo.after_cons, StableHlo.after_nil]
  exact StableHlo.reshape_result_ne _ _ _ _ _ _ Wv hb
theorem keeps1 (Wv : Valuation τ sig (Elt Ideal)) {b : Ref sig .tc} (hb : b ≠ main_v2) :
    StableHlo.after (hostOps1 (F := Ideal)) Wv (Proc.devRef .tc b) = Wv (Proc.devRef .tc b) := by
  simp only [StableHlo.after_cons, StableHlo.after_nil]
  exact StableHlo.reshape_result_ne _ _ _ _ _ _ Wv hb
theorem keeps2 (Wv : Valuation τ sig (Elt Ideal)) {b : Ref sig .tc} (hb : b ≠ main_v4) :
    StableHlo.after (hostOps2 (F := Ideal)) Wv (Proc.devRef .tc b) = Wv (Proc.devRef .tc b) := by
  simp only [StableHlo.after_cons, StableHlo.after_nil]
  exact StableHlo.reshape_result_ne _ _ _ _ _ _ Wv hb
theorem keeps3 (Wv : Valuation τ sig (Elt Ideal)) {b : Ref sig .tc} (hb : b ≠ main_v6) :
    StableHlo.after (hostOps3 (F := Ideal)) Wv (Proc.devRef .tc b) = Wv (Proc.devRef .tc b) := by
  simp only [StableHlo.after_cons, StableHlo.after_nil]
  exact StableHlo.reshape_result_ne _ _ _ _ _ _ Wv hb

variable (m : (ℓ : Loc nD τ sig) → Buf (Elt Ideal) ℓ) (ρ : Dev nD → PrngReg) (c : Dev nD)

/-! ## Up to the input projection -/

/-- The input projection's first operand: the queries, reshaped to [256, 1024]. -/
theorem v1_x : V1 m ρ c main_v0 = shapeCast S256x1024 (m ((c : Thread nD τ).loc main_arg0)) Facts₀.shapeCasts_S32x8x1024_S256x1024 := by
  show StableHlo.after hostOps0 (W0 m ρ c) (Proc.devRef .tc main_v0) = _
  after_results
  rfl

/-- Its second operand: the input weights. -/
theorem v1_win : V1 m ρ c main_arg2 = m ((c : Thread nD τ).loc main_arg2) :=
  keeps0 (W0 m ρ c) (b := main_arg2) (by decide)

/-- The input projection's array. -/
theorem w2_h : W2 m ρ c (Proc.devRef .tc main_v1) = Reg0.G (V1 m ρ c main_v0) (V1 m ρ c main_arg2) :=
  (W2_arr m ρ c 2).trans (Reg0.final (V1 m ρ) c)

/-! ## Up to the attention core -/

/-- The attention core's first operand: the input projection's array, reshaped to [32, 8, 1024]. -/
theorem v3_h : V3 m ρ c main_v2 = shapeCast S32x8x1024 (W2 m ρ c (Proc.devRef .tc main_v1)) Facts₀.shapeCasts_S256x1024_S32x8x1024 := by
  show StableHlo.after hostOps1 (W2 m ρ c) (Proc.devRef .tc main_v2) = _
  after_results
  rfl

/-- Its second operand: the memory bank. -/
theorem v3_mb : V3 m ρ c main_arg1 = m ((c : Thread nD τ).loc main_arg1) :=
  calc V3 m ρ c main_arg1
    _ = W2 m ρ c (Proc.devRef .tc main_arg1) := keeps1 (W2 m ρ c) (b := main_arg1) (by decide)
    _ = W1 m ρ c (Proc.devRef .tc main_arg1) := W2_of_ne m ρ c main_arg1 (by decide)
    _ = m ((c : Thread nD τ).loc main_arg1) := keeps0 (W0 m ρ c) (b := main_arg1) (by decide)

theorem w4_scores : W4 m ρ c (Proc.devRef .tc main_v3_0) = Reg1.Gs (V3 m ρ c main_v2) (V3 m ρ c main_arg1) :=
  (W4_arr m ρ c 2).trans (Reg1.final_s (V3 m ρ) c)
theorem w4_weights : W4 m ρ c (Proc.devRef .tc main_v3_1) = Reg1.Ga (V3 m ρ c main_v2) (V3 m ρ c main_arg1) :=
  (W4_arr m ρ c 3).trans (Reg1.final_a (V3 m ρ) c)
theorem w4_context : W4 m ρ c (Proc.devRef .tc main_v3_2) = Reg1.Gc (V3 m ρ c main_v2) (V3 m ρ c main_arg1) :=
  (W4_arr m ρ c 4).trans (Reg1.final_c (V3 m ρ) c)

/-! ## Up to the output projection -/

/-- The output projection's first operand: the context array, reshaped to [256, 1024]. -/
theorem v5_c : V5 m ρ c main_v4 = shapeCast S256x1024 (W4 m ρ c (Proc.devRef .tc main_v3_2)) Facts₀.shapeCasts_S32x8x1024_S256x1024 := by
  show StableHlo.after hostOps2 (W4 m ρ c) (Proc.devRef .tc main_v4) = _
  after_results
  rfl

/-- Its second operand: the reshaped queries, untouched since the first reshape. -/
theorem v5_x : V5 m ρ c main_v0 = V1 m ρ c main_v0 :=
  calc V5 m ρ c main_v0
    _ = W4 m ρ c (Proc.devRef .tc main_v0) := keeps2 (W4 m ρ c) (b := main_v0) (by decide)
    _ = W3 m ρ c (Proc.devRef .tc main_v0) := W4_of_ne m ρ c main_v0 (by decide)
    _ = W2 m ρ c (Proc.devRef .tc main_v0) := keeps1 (W2 m ρ c) (b := main_v0) (by decide)
    _ = W1 m ρ c (Proc.devRef .tc main_v0) := (W2_arr m ρ c 0).trans (((dat0 (V1 m ρ) c).arrAt_in 0 rfl _).trans (A_eq0 (V1 m ρ) c 0))

/-- Its third operand: the output weights. -/
theorem v5_wout : V5 m ρ c main_arg3 = m ((c : Thread nD τ).loc main_arg3) :=
  calc V5 m ρ c main_arg3
    _ = W4 m ρ c (Proc.devRef .tc main_arg3) := keeps2 (W4 m ρ c) (b := main_arg3) (by decide)
    _ = W3 m ρ c (Proc.devRef .tc main_arg3) := W4_of_ne m ρ c main_arg3 (by decide)
    _ = W2 m ρ c (Proc.devRef .tc main_arg3) := keeps1 (W2 m ρ c) (b := main_arg3) (by decide)
    _ = W1 m ρ c (Proc.devRef .tc main_arg3) := W2_of_ne m ρ c main_arg3 (by decide)
    _ = m ((c : Thread nD τ).loc main_arg3) := keeps0 (W0 m ρ c) (b := main_arg3) (by decide)

theorem w6_out : W6 m ρ c (Proc.devRef .tc main_v5) = Reg2.G (V5 m ρ c main_v4) (V5 m ρ c main_v0) (V5 m ρ c main_arg3) :=
  (W6_arr m ρ c 3).trans (Reg2.final (V5 m ρ) c)

/-! ## The three results at the last boundary -/

theorem w7_out : W7 m ρ c (Proc.devRef .tc main_v6) = shapeCast S32x8x1024 (W6 m ρ c (Proc.devRef .tc main_v5)) Facts₀.shapeCasts_S256x1024_S32x8x1024 := by
  show StableHlo.after hostOps3 (W6 m ρ c) (Proc.devRef .tc main_v6) = _
  after_results
  rfl

theorem w7_weights : W7 m ρ c (Proc.devRef .tc main_v3_1) = W4 m ρ c (Proc.devRef .tc main_v3_1) :=
  calc W7 m ρ c (Proc.devRef .tc main_v3_1)
    _ = W6 m ρ c (Proc.devRef .tc main_v3_1) := keeps3 (W6 m ρ c) (b := main_v3_1) (by decide)
    _ = W5 m ρ c (Proc.devRef .tc main_v3_1) := W6_of_ne m ρ c main_v3_1 (by decide)
    _ = W4 m ρ c (Proc.devRef .tc main_v3_1) := keeps2 (W4 m ρ c) (b := main_v3_1) (by decide)

theorem w7_scores : W7 m ρ c (Proc.devRef .tc main_v3_0) = W4 m ρ c (Proc.devRef .tc main_v3_0) :=
  calc W7 m ρ c (Proc.devRef .tc main_v3_0)
    _ = W6 m ρ c (Proc.devRef .tc main_v3_0) := keeps3 (W6 m ρ c) (b := main_v3_0) (by decide)
    _ = W5 m ρ c (Proc.devRef .tc main_v3_0) := W6_of_ne m ρ c main_v3_0 (by decide)
    _ = W4 m ρ c (Proc.devRef .tc main_v3_0) := keeps2 (W4 m ρ c) (b := main_v3_0) (by decide)

end Cert.KernelIdeal.Fold

end
-- ==== Proof.LibRealValued.lean ====
/-
  Real-valued entries on the extended reals.

  At the ideal reading a float is an extended real.  x - x = 0 holds exactly when x is a real number
  (top minus top is bottom), so a program that returns the mean of |h - h| returns 0 as soon as every entry of h is
  real, whatever h is.  This module states "every entry is a real number" for a vector, shows that the
  operations a counting histogram is built from keep it (sums, products, an integer read as a float, a change
  of format, a matrix product into a zero accumulator, an accumulating scatter, and every operation that only
  moves entries: slice, reshape, gather) and closes the mean of |h - h|.
-/
import Idealize.ShloMosaic.PureOps.Ideal.Laws

noncomputable section

namespace Cert.RealValued

open Idealize.ShloMosaic

/-- An extended real that is a real number: neither infinity. -/
def IsReal (x : EReal) : Prop := ∃ r : ℝ, x = (r : EReal)

theorem isReal_zero : IsReal 0 := ⟨0, rfl⟩

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is zero (false at the infinities). -/
theorem IsReal.sub_self {x : EReal} (hx : IsReal x) : x - x = 0 := by
  obtain ⟨a, rfl⟩ := hx
  rw [← EReal.coe_sub, _root_.sub_self, EReal.coe_zero]

/-- Every entry of a vector of extended reals is a real number. -/
def AllReal {S : Shape} (v : S.Idx → EReal) : Prop := ∀ i, IsReal (v i)

/-- Re-indexing (a slice, a reshape, a gather, a broadcast) only moves entries. -/
theorem AllReal.comp {S T : Shape} {v : S.Idx → EReal} (hv : AllReal v) (f : T.Idx → S.Idx) : AllReal fun j => v (f j) :=
  fun j => hv (f j)

theorem allReal_const {S : Shape} {x : EReal} (hx : IsReal x) : AllReal (S := S) fun _ => x := fun _ => hx

section Ops
variable {S T : Shape} {φ : FTy}

theorem allReal_addf {x y : FVec Ideal S φ} (hx : AllReal x) (hy : AllReal y) : AllReal (addf x y) :=
  fun i => (hx i).add (hy i)

/-- The splat of the zero word. -/
theorem allReal_broadcast_zero : AllReal (broadcast S (Scalar.ofBits (F := Ideal) .f32 0x00000000#32)) := fun _ => by
  show IsReal (Ideal.ofBits .f32 0x00000000#32)
  rw [Ideal.ofBits_zero_f32]; exact isReal_zero

theorem allReal_constant_zero : AllReal (constant (F := Ideal) S .f32 0x00000000#32) := fun _ => by
  show IsReal (Ideal.ofBits .f32 0x00000000#32)
  rw [Ideal.ofBits_zero_f32]; exact isReal_zero

/-- An integer read as a float is that integer; a change of format is the identity. -/
theorem allReal_sitofp {w : Nat} (x : IVec S w) : AllReal (sitofp (F := Ideal) φ x) :=
  fun i => ⟨((x i).toInt : ℝ), rfl⟩

theorem allReal_truncf {ψ : FTy} {x : FVec Ideal S φ} (h : ψ.bits < φ.bits) (hx : AllReal x) : AllReal (truncf ψ x h) :=
  fun i => hx i

theorem allReal_shapeCast {x : S.Idx → EReal} (h : S.ShapeCasts T) (hx : AllReal x) : AllReal (shapeCast T x h) :=
  fun _ => hx _

theorem allReal_extractStridedSlice {x : S.Idx → EReal} (off : Fin S.rank → Nat) (h : S.Slices off T) (hx : AllReal x) :
    AllReal (extractStridedSlice T off x h) :=
  fun _ => hx _

theorem allReal_gather {si : Shape} {w : Nat} (d : GatherDims S si T) {x : S.Idx → EReal} (idx : IVec si w) (hx : AllReal x) :
    AllReal (Host.gather d x idx) :=
  fun _ => hx _

/-- A matrix product into the zero accumulator: each entry is a finite sum of products of entries. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (FloatOps.matmul d prec lhs rhs (constant so .f32 0x00000000#32)) := fun j => by
  rw [Ideal.matmul_constant_zero_apply]
  exact isReal_sum _ _ fun k _ => (hl _).mul (hr _)

/-- An accumulating scatter: each entry is the operand's plus a finite sum of update entries, wherever the
    indices point. -/
theorem allReal_scatterAdd {si su : Shape} {w : Nat} (d : ScatterDims S si su) {x : FVec Ideal S φ} (idx : IVec si w)
    {upd : FVec Ideal su φ} (hx : AllReal x) (hu : AllReal upd) : AllReal (Ideal.hostScatterAdd d x idx upd) := fun i => by
  unfold Ideal.hostScatterAdd
  exact (hx i).add (isReal_sum _ _ fun j _ => hu j)

end Ops

/-- The word 0x46BF4000 (24480.0) denotes the real 24480. -/
theorem ofBits_24480 : Ideal.ofBits .f32 0x46BF4000#32 = ((24480 : ℝ) : EReal) := by
  simp [Ideal.ofBits, Ideal.ieee, -EReal.coe_mul]; norm_num

/-- The mean of |h - h|: for a vector h of real numbers every difference is 0, so is its absolute value, the sum
    of zeros from the zero word is 0, and 0 divided by a nonzero real is 0. -/
theorem mean_abs_sub_self {S T U : Shape} {axes : List (Fin S.rank)} (h : FVec Ideal S .f32) (hh : AllReal h)
    (hr : S.ReducesTo axes T) (hu : 0 < U.numel) (c : BitVec 32) (y : ℝ) (hy : y ≠ 0) (hc : Ideal.ofBits .f32 c = (y : EReal)) :
    Host.divf (F := Ideal) (Host.reduceAdd (F := Ideal) (Host.absf (F := Ideal) (subf h h)) (constant (F := Ideal) U .f32 0x00000000#32) hr hu)
        (constant (F := Ideal) T .f32 c)
      = fun _ => (0 : EReal) := by
  funext j
  have hz : Host.absf (F := Ideal) (subf h h) = fun _ => (0 : EReal) := by
    funext i
    show max (h i - h i) (-(h i - h i)) = 0
    rw [(hh i).sub_self, neg_zero, max_self]
  show Ideal.div (Ideal.hostReduceAdd hr (Host.absf (F := Ideal) (subf h h)) (Ideal.ofBits .f32 0x00000000#32) j) (Ideal.ofBits .f32 c) = 0
  rw [hz, hc, Ideal.div_coe hy]
  unfold Ideal.hostReduceAdd
  rw [Ideal.ofBits_zero_f32, Finset.sum_const_zero, add_zero, zero_mul]

end Cert.RealValued

end
-- ==== Proof.LibSoftmaxLaw.lean ====
/-
  General lemmas: the two ways of writing a softmax agree on real numbers.

  On the extended reals, with exp and log read as at the ideal instance (exp of a real is the real exponential; log of
  a positive real is the real logarithm; division by a nonzero real is multiplication by its reciprocal):

  * the inclusion of the reals commutes with finite sums;
  * the maximum of finitely many real numbers, folded from minus infinity, is minus infinity over the empty index set
    and a real number otherwise;
  * for real numbers a_k over a nonempty index set, exp a_j / sum_k exp a_k = exp (a_j - log (sum_k exp a_k)):
    the quotient form of a softmax against the exponential of a log-softmax.  (At an infinity the two sides differ,
    so "every a_k is a real number" is a genuine hypothesis.)

  "x is a real number" is spelt as the existence of a real r with x = r, so the file needs nothing but the library.
-/
import Idealize.ShloMosaic.PureOps.Ideal.Laws

noncomputable section

open scoped BigOperators

namespace Cert.Lib.SoftmaxLaw

open Idealize.ShloMosaic

/-- The inclusion of the reals in the extended reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The ideal exponential of a real number is the real exponential. -/
theorem exp_coe (r : ℝ) : Ideal.exp (r : EReal) = ((Real.exp r : ℝ) : EReal) := rfl

/-- The ideal logarithm of a positive real number is the real logarithm. -/
theorem log_coe_pos {r : ℝ} (h : 0 < r) : Ideal.log (r : EReal) = ((Real.log r : ℝ) : EReal) := by
  show (if r ≤ 0 then (⊥ : EReal) else ((Real.log r : ℝ) : EReal)) = _
  rw [if_neg (not_le.mpr h)]

/-- The maximum of finitely many real numbers, folded from minus infinity, is minus infinity over the empty set and a
    real number otherwise. -/
theorem fold_max_real {ι : Type*} (s : Finset ι) (f : ι → EReal) (h : ∀ i ∈ s, ∃ r : ℝ, f i = (r : EReal)) :
    (s = ∅ ∧ s.fold max ⊥ f = ⊥) ∨ ∃ r : ℝ, s.fold max ⊥ f = (r : EReal) := by
  classical
  induction s using Finset.induction_on with
  | empty => exact Or.inl ⟨rfl, Finset.fold_empty⟩
  | insert a s ha ih =>
    right
    rw [Finset.fold_insert ha]
    rcases ih (fun i hi => h i (Finset.mem_insert_of_mem hi)) with ⟨-, e⟩ | hr
    · rw [e, max_bot_right]; exact h a (Finset.mem_insert_self a s)
    · rcases max_choice (f a) (s.fold max ⊥ f) with e | e <;> rw [e]
      · exact h a (Finset.mem_insert_self a s)
      · exact hr

/-- THE SOFTMAX LAW.  For real numbers a_k over a nonempty index set, exp a_j / sum_k exp a_k is
    exp (a_j - log (sum_k exp a_k)): the sum is a positive real, its logarithm a real, and exp turns the difference
    into the quotient. -/
theorem softmax_forms {n : ℕ} (a : Fin n → EReal) (ha : ∀ k, ∃ r : ℝ, a k = (r : EReal)) (j : Fin n) :
    Ideal.div (Ideal.exp (a j)) (∑ k, Ideal.exp (a k)) = Ideal.exp (a j - Ideal.log (∑ k, Ideal.exp (a k))) := by
  choose r hr using ha
  have hs : ∑ k, Ideal.exp (a k) = ((∑ k, Real.exp (r k) : ℝ) : EReal) := by
    rw [← coe_sum]; exact Finset.sum_congr rfl fun k _ => by rw [hr k]; rfl
  have hpos : 0 < ∑ k, Real.exp (r k) := Finset.sum_pos (fun k _ => Real.exp_pos _) ⟨j, Finset.mem_univ j⟩
  rw [hs, hr j, Ideal.div_coe hpos.ne', log_coe_pos hpos, exp_coe, ← EReal.coe_sub, exp_coe, ← EReal.coe_mul]
  congr 1
  rw [Real.exp_sub, Real.exp_log hpos, one_div, div_eq_mul_inv]

end Cert.Lib.SoftmaxLaw

end
-- ==== Proof.Spec.lean ====
/-
  The attention layer as plain mathematics on the extended reals.

  With x : [32, 8, 1024] the queries, M : [32, 2048, 1024] the memory bank, Win : [1024, 1024] and
  Wout : [1024, 2048] the two weight matrices:

    h[b,t,e]      = sum over d of x[b,t,d] * Win[e,d]
    score[b,t,s]  = sum over e of h[b,t,e] * M[b,s,e]
    m[b,t]        = the maximum over s of score[b,t,s]
    z[b,t]        = sum over s of exp (score[b,t,s] - m[b,t])
    alpha[b,t,s]  = exp (score[b,t,s] - m[b,t]) / z[b,t]                  (one way to write the softmax)
                  = exp ((score[b,t,s] - m[b,t]) - log z[b,t])            (the other)
    c[b,t,d]      = sum over s of alpha[b,t,s] * M[b,s,d]
    out[b,t,o]    = tanh (sum over d of c[b,t,d] * Wout[o,d]  +  sum over d of x[b,t,d] * Wout[o,1024+d])
                  = tanh (sum over f < 2048 of (c ++ x)[b,t,f] * Wout[o,f]).

  The two ways of writing alpha agree as soon as every score is a real number: then the shifted scores are real,
  z is a positive real, and exp (a - log z) = exp a / z.  On the extended reals this is false at the infinities, so
  real-valuedness of the scores (which follows from real-valued inputs) is what the law rests on.  Splitting the last
  contraction in two halves is just associativity and commutativity of a finite sum.
-/
import Idealize.ShloMosaic.Lib.ValueIdx
import Idealize.ShloMosaic.PureOps.Ideal.Laws
import proofs.«135022_g850403525219_cont_9to1_m_489_3_alg».proof.Proof.LibRealValued
import proofs.«135022_g850403525219_cont_9to1_m_489_3_alg».proof.Proof.LibSoftmaxLaw

noncomputable section

open scoped BigOperators

namespace Cert.Attn

open Idealize.ShloMosaic Idealize.ShloMosaic.ValueIdx Cert.RealValued Cert.Lib.SoftmaxLaw

/-- The difference of two real numbers is a real number. -/
theorem isReal_sub {x y : EReal} (hx : IsReal x) (hy : IsReal y) : IsReal (x - y) := by
  obtain ⟨a, rfl⟩ := hx; obtain ⟨b, rfl⟩ := hy; exact ⟨a - b, (EReal.coe_sub a b).symm⟩

/-! ## The layer -/

abbrev SX : Shape := ⟨3, ![32, 8, 1024]⟩
abbrev SM : Shape := ⟨3, ![32, 2048, 1024]⟩
abbrev SWin : Shape := ⟨2, ![1024, 1024]⟩
abbrev SWout : Shape := ⟨2, ![1024, 2048]⟩
abbrev SS : Shape := ⟨3, ![32, 8, 2048]⟩

section Layer
variable (x : SX.Idx → EReal) (mb : SM.Idx → EReal) (win : SWin.Idx → EReal) (wout : SWout.Idx → EReal)

/-- The projected query. -/
def hid (b : Fin 32) (t : Fin 8) (e : Fin 1024) : EReal := ∑ d : Fin 1024, x (ix3 b t d) * win (ix2 e d)

/-- The attention score of query (b, t) against memory row s. -/
def score (b : Fin 32) (t : Fin 8) (s : Fin 2048) : EReal := ∑ e : Fin 1024, hid x win b t e * mb (ix3 b s e)

/-- The largest score of a query. -/
def rowMax (b : Fin 32) (t : Fin 8) : EReal := (Finset.univ : Finset (Fin 2048)).fold max ⊥ (score x mb win b t)

/-- A score less its row's maximum. -/
def shifted (b : Fin 32) (t : Fin 8) (s : Fin 2048) : EReal := score x mb win b t s - rowMax x mb win b t

/-- The softmax normaliser. -/
def denom (b : Fin 32) (t : Fin 8) : EReal := ∑ s : Fin 2048, Ideal.exp (shifted x mb win b t s)

/-- The attention weights, written as a quotient. -/
def alphaQuot (b : Fin 32) (t : Fin 8) (s : Fin 2048) : EReal :=
  Ideal.div (Ideal.exp (shifted x mb win b t s)) (denom x mb win b t)

/-- The attention weights, written through the logarithm of the normaliser. -/
def alphaLog (b : Fin 32) (t : Fin 8) (s : Fin 2048) : EReal :=
  Ideal.exp (shifted x mb win b t s - Ideal.log (denom x mb win b t))

/-- The context vector for given attention weights. -/
def ctx (al : Fin 32 → Fin 8 → Fin 2048 → EReal) (b : Fin 32) (t : Fin 8) (d : Fin 1024) : EReal :=
  ∑ s : Fin 2048, al b t s * mb (ix3 b s d)

/-- The output projection, its contraction over 2048 columns written as the two halves. -/
def attn (al : Fin 32 → Fin 8 → Fin 2048 → EReal) (b : Fin 32) (t : Fin 8) (o : Fin 1024) : EReal :=
  Ideal.tanh ((∑ d : Fin 1024, ctx mb al b t d * wout (ix2 o (Fin.castAdd 1024 d)))
    + ∑ d : Fin 1024, x (ix3 b t d) * wout (ix2 o (Fin.natAdd 1024 d)))

/-- The three results as whole arrays. -/
def scoresArr : SS.Idx → EReal := fun i => score x mb win (i 0) (i 1) (i 2)
def alphaArr (al : Fin 32 → Fin 8 → Fin 2048 → EReal) : SS.Idx → EReal := fun i => al (i 0) (i 1) (i 2)
def attnArr (al : Fin 32 → Fin 8 → Fin 2048 → EReal) : SX.Idx → EReal := fun i => attn x mb wout al (i 0) (i 1) (i 2)

/-! ## Real-valued inputs give real-valued scores, and the two softmax forms then agree -/

variable {x mb win}

theorem isReal_hid (hx : AllReal x) (hw : AllReal win) (b : Fin 32) (t : Fin 8) (e : Fin 1024) : IsReal (hid x win b t e) :=
  isReal_sum _ _ fun _ _ => (hx _).mul (hw _)

theorem isReal_score (hx : AllReal x) (hm : AllReal mb) (hw : AllReal win) (b : Fin 32) (t : Fin 8) (s : Fin 2048) :
    IsReal (score x mb win b t s) :=
  isReal_sum _ _ fun _ _ => (isReal_hid hx hw b t _).mul (hm _)

theorem isReal_rowMax (hx : AllReal x) (hm : AllReal mb) (hw : AllReal win) (b : Fin 32) (t : Fin 8) :
    IsReal (rowMax x mb win b t) := by
  rcases fold_max_real (Finset.univ : Finset (Fin 2048)) (score x mb win b t) (fun s _ => isReal_score hx hm hw b t s) with ⟨e, -⟩ | h
  · exact absurd e (Finset.univ_nonempty (α := Fin 2048)).ne_empty
  · exact h

theorem isReal_shifted (hx : AllReal x) (hm : AllReal mb) (hw : AllReal win) (b : Fin 32) (t : Fin 8) (s : Fin 2048) :
    IsReal (shifted x mb win b t s) :=
  isReal_sub (isReal_score hx hm hw b t s) (isReal_rowMax hx hm hw b t)

/-- For real-valued inputs the quotient form and the logarithm form of the attention weights are one function. -/
theorem alphaQuot_eq_alphaLog (hx : AllReal x) (hm : AllReal mb) (hw : AllReal win) :
    alphaQuot x mb win = alphaLog x mb win := by
  funext b t s
  exact softmax_forms (shifted x mb win b t) (isReal_shifted hx hm hw b t) s

end Layer

end Cert.Attn

end
-- ==== Proof.KMath.lean ====
/-
  The three calls composed are the layer.

  Between the calls the program only reshapes: rows (b, t) of a [32, 8, n] array are rows 8b + t of the [256, n]
  array.  Reading the input projection's array through that reshape gives the projected queries h[b,t,e]; feeding
  those to the attention core gives the scores, the softmax weights (in their quotient form) and the context rows;
  and the output projection of the reshaped context and query rows, reshaped back, is the layer's output.
-/
import proofs.«135022_g850403525219_cont_9to1_m_489_3_alg».proof.Proof.Spec
import proofs.«135022_g850403525219_cont_9to1_m_489_3_alg».proof.Proof.KReg0
import proofs.«135022_g850403525219_cont_9to1_m_489_3_alg».proof.Proof.KReg1
import proofs.«135022_g850403525219_cont_9to1_m_489_3_alg».proof.Proof.KReg2

noncomputable section

open scoped BigOperators

namespace Cert.KernelIdeal.Compose

open Cert.KernelIdeal Cert.KernelIdeal.Gen Cert.Attn
open Idealize.ShloMosaic Idealize.ShloMosaic.ValueIdx

/-- Row (b, t) of a [32, 8, n] array is row 8b + t of its [256, n] reshape. -/
def rowOf (b : Fin 32) (t : Fin 8) : Fin 256 := ⟨b.val * 8 + t.val, by have := b.isLt; have := t.isLt; omega⟩

theorem row_split (r : Fin 256) : ∃ (b : Fin 32) (t : Fin 8), r = rowOf b t :=
  ⟨⟨r.val / 8, by have := r.isLt; omega⟩, ⟨r.val % 8, Nat.mod_lt _ (by decide)⟩, Fin.ext (by show r.val = r.val / 8 * 8 + r.val % 8; omega)⟩

theorem flat_apply {n : ℕ} (v : (⟨3, ![32, 8, n]⟩ : Shape).Idx → EReal) (h : (⟨3, ![32, 8, n]⟩ : Shape).ShapeCasts ⟨2, ![256, n]⟩)
    (b : Fin 32) (t : Fin 8) (d : Fin n) : shapeCast ⟨2, ![256, n]⟩ v h (ix2 (rowOf b t) d) = v (ix3 b t d) := by
  refine shapeCast_apply v h (ix2 (rowOf b t) d) (ix3 b t d) ?_
  rw [Shape.rowMajor_val_three, Shape.rowMajor_val_two]
  rfl

theorem unflat_apply {n : ℕ} (v : (⟨2, ![256, n]⟩ : Shape).Idx → EReal) (h : (⟨2, ![256, n]⟩ : Shape).ShapeCasts ⟨3, ![32, 8, n]⟩)
    (b : Fin 32) (t : Fin 8) (d : Fin n) : shapeCast ⟨3, ![32, 8, n]⟩ v h (ix3 b t d) = v (ix2 (rowOf b t) d) := by
  refine shapeCast_apply v h (ix3 b t d) (ix2 (rowOf b t) d) ?_
  rw [Shape.rowMajor_val_three, Shape.rowMajor_val_two]
  rfl

section
variable (x : SX.Idx → EReal) (mb : SM.Idx → EReal) (win : SWin.Idx → EReal) (wout : SWout.Idx → EReal)
variable (hf : S32x8x1024.ShapeCasts S256x1024) (hu : S256x1024.ShapeCasts S32x8x1024)

/-- The projected queries as a [32, 8, 1024] array. -/
def H3 : S32x8x1024.Idx → EReal := fun i => hid x win (i 0) (i 1) (i 2)

/-- The input projection's array, reshaped, is the projected queries. -/
theorem proj_is_H3 : shapeCast S32x8x1024 (Reg0.G (shapeCast S256x1024 x hf) win) hu = H3 x win := by
  funext i
  obtain ⟨b, t, e, rfl⟩ : ∃ (b : Fin 32) (t : Fin 8) (e : Fin 1024), i = ix3 b t e := ⟨i 0, i 1, i 2, eq_ix3 i⟩
  refine (unflat_apply _ hu b t e).trans ?_
  show ∑ d : Fin 1024, shapeCast S256x1024 x hf (ix2 (rowOf b t) d) * win (ix2 e d) = ∑ d : Fin 1024, x (ix3 b t d) * win (ix2 e d)
  exact Finset.sum_congr rfl fun d _ => by rw [flat_apply x hf b t d]

/-- The attention core's scores of the projected queries are the layer's scores. -/
theorem scores_eq : Reg1.Gs (H3 x win) mb = scoresArr x mb win := rfl

/-- Its weights are the quotient form of the softmax. -/
theorem weights_at (b : Fin 32) (p : Fin 8) (s : Fin 2048) :
    Pay.rowSoftmax (Reg1.scV (H3 x win) mb b) (ix2 p s) = alphaQuot x mb win b p s := by
  rw [Pay.rowSoftmax_apply]
  rfl

theorem weights_eq : Reg1.Ga (H3 x win) mb = alphaArr (alphaQuot x mb win) := by
  funext i
  obtain ⟨b, t, s, rfl⟩ : ∃ (b : Fin 32) (t : Fin 8) (s : Fin 2048), i = ix3 b t s := ⟨i 0, i 1, i 2, eq_ix3 i⟩
  exact weights_at x mb win b t s

/-- Its context rows are the layer's, for the quotient-form weights. -/
theorem context_eq (b : Fin 32) (t : Fin 8) (d : Fin 1024) :
    Reg1.Gc (H3 x win) mb (ix3 b t d) = ctx mb (alphaQuot x mb win) b t d := by
  show ∑ s : Fin 2048, Pay.rowSoftmax (Reg1.scV (H3 x win) mb b) (ix2 t s) * mb (ix3 b s d) = _
  exact Finset.sum_congr rfl fun s _ => by rw [weights_at x mb win b t s]

/-- The output projection of the reshaped context and query rows, reshaped back, is the layer's output. -/
theorem output_eq :
    shapeCast S32x8x1024 (Reg2.G (shapeCast S256x1024 (Reg1.Gc (H3 x win) mb) hf) (shapeCast S256x1024 x hf) wout) hu
      = attnArr x mb wout (alphaQuot x mb win) := by
  funext i
  obtain ⟨b, t, o, rfl⟩ : ∃ (b : Fin 32) (t : Fin 8) (o : Fin 1024), i = ix3 b t o := ⟨i 0, i 1, i 2, eq_ix3 i⟩
  refine (unflat_apply _ hu b t o).trans ?_
  show Ideal.tanh ((∑ d : Fin 1024, shapeCast S256x1024 (Reg1.Gc (H3 x win) mb) hf (ix2 (rowOf b t) d) * wout (ix2 o (Fin.castAdd 1024 d)))
      + ∑ d : Fin 1024, shapeCast S256x1024 x hf (ix2 (rowOf b t) d) * wout (ix2 o (Fin.natAdd 1024 d)))
    = Ideal.tanh ((∑ d : Fin 1024, ctx mb (alphaQuot x mb win) b t d * wout (ix2 o (Fin.castAdd 1024 d)))
      + ∑ d : Fin 1024, x (ix3 b t d) * wout (ix2 o (Fin.natAdd 1024 d)))
  refine congrArg Ideal.tanh (congrArg₂ (· + ·) ?_ ?_)
  · exact Finset.sum_congr rfl fun d _ => by rw [flat_apply _ hf b t d, context_eq x mb win b t d]
  · exact Finset.sum_congr rfl fun d _ => by rw [flat_apply x hf b t d]

end

end Cert.KernelIdeal.Compose

end
-- ==== Proof.KValue.lean ====
/-
  The idealized kernel computes the layer.

  Reading the three result buffers back through the chain (the fold module) and composing the three calls (the
  composition module): the program ends with its first result at the layer's output, its second at the attention
  weights in their quotient form, its third at the scores, each as a function of the four argument arrays.
-/
import proofs.«135022_g850403525219_cont_9to1_m_489_3_alg».proof.Proof.KRun
import proofs.«135022_g850403525219_cont_9to1_m_489_3_alg».proof.Proof.KFold
import proofs.«135022_g850403525219_cont_9to1_m_489_3_alg».proof.Proof.KMath

noncomputable section

namespace Cert.KernelIdeal.Layer

open Cert.KernelIdeal Cert.KernelIdeal.Gen Cert.Attn
open Idealize.ShloMosaic Idealize.ShloMosaic.TcCoe Idealize.SL.Sem

variable (m : (ℓ : Loc nD τ sig) → Buf (Elt Ideal) ℓ) (ρ : Dev nD → PrngReg)

/-- The attention core's first operand is the projected queries. -/
theorem core_operand (c : Dev nD) :
    V3 m ρ c main_v2 = Compose.H3 (m ((c : Thread nD τ).loc main_arg0)) (m ((c : Thread nD τ).loc main_arg2)) := by
  rw [Fold.v3_h, Fold.w2_h, Fold.v1_x, Fold.v1_win]
  exact Compose.proj_is_H3 _ _ _ _

theorem scores_result (c : Dev nD) :
    W7 m ρ c (Proc.devRef .tc main_v3_0)
      = scoresArr (m ((c : Thread nD τ).loc main_arg0)) (m ((c : Thread nD τ).loc main_arg1)) (m ((c : Thread nD τ).loc main_arg2)) := by
  rw [Fold.w7_scores, Fold.w4_scores, core_operand, Fold.v3_mb]
  exact Compose.scores_eq _ _ _

theorem weights_result (c : Dev nD) :
    W7 m ρ c (Proc.devRef .tc main_v3_1)
      = alphaArr (alphaQuot (m ((c : Thread nD τ).loc main_arg0)) (m ((c : Thread nD τ).loc main_arg1)) (m ((c : Thread nD τ).loc main_arg2))) := by
  rw [Fold.w7_weights, Fold.w4_weights, core_operand, Fold.v3_mb]
  exact Compose.weights_eq _ _ _

theorem output_result (c : Dev nD) :
    W7 m ρ c (Proc.devRef .tc main_v6)
      = attnArr (m ((c : Thread nD τ).loc main_arg0)) (m ((c : Thread nD τ).loc main_arg1)) (m ((c : Thread nD τ).loc main_arg3))
          (alphaQuot (m ((c : Thread nD τ).loc main_arg0)) (m ((c : Thread nD τ).loc main_arg1)) (m ((c : Thread nD τ).loc main_arg2))) := by
  rw [Fold.w7_out, Fold.w6_out, Fold.v5_c, Fold.w4_context, core_operand, Fold.v3_mb, Fold.v5_x, Fold.v1_x, Fold.v5_wout]
  exact Compose.output_eq _ _ _ _ _ _

/-- Every weakly fair execution of the idealized kernel terminates without a fault, with the three results at the
    layer's output, weights (quotient form) and scores of the argument arrays, and the arguments unchanged. -/
theorem run : θ_run defs (onTc (τ := τ) (main (F := Ideal))) ⟨m, fun _ => 0, ρ⟩ (fun r => ∀ c : Dev nD,
      r.2.mem ((c.tc : Thread nD τ).loc main_v6)
        = attnArr (m ((c.tc : Thread nD τ).loc main_arg0)) (m ((c.tc : Thread nD τ).loc main_arg1)) (m ((c.tc : Thread nD τ).loc main_arg3))
            (alphaQuot (m ((c.tc : Thread nD τ).loc main_arg0)) (m ((c.tc : Thread nD τ).loc main_arg1)) (m ((c.tc : Thread nD τ).loc main_arg2)))
      ∧ r.2.mem ((c.tc : Thread nD τ).loc main_v3_1)
        = alphaArr (alphaQuot (m ((c.tc : Thread nD τ).loc main_arg0)) (m ((c.tc : Thread nD τ).loc main_arg1)) (m ((c.tc : Thread nD τ).loc main_arg2)))
      ∧ r.2.mem ((c.tc : Thread nD τ).loc main_v3_0)
        = scoresArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c).1.trans (output_result m ρ c), (h c).2.1.trans (weights_result m ρ c), (h c).2.2.1.trans (scores_result m ρ c), (h c).2.2.2⟩)
    (Results.run m ρ)

end Cert.KernelIdeal.Layer

end
-- ==== Proof.RefValue.lean ====
/-
  The reference's three results, read entry by entry.

  Stage by stage the reference computes: the projected queries (a contraction over d), the scores (a batched
  contraction over e), each row's maximum (a fold of max from minus infinity, then max with minus infinity again,
  which changes nothing), the shifted scores, their exponentials, the row sums (from zero), the logarithm of the
  row sums, the shifted scores less that logarithm, the exponential of that (the attention weights, in their
  logarithm form), the context rows (a batched contraction over s), the concatenation of context and query rows
  along the last axis, the contraction of that against the output weights over all 2048 columns, and tanh.

  The contraction over the 2048 columns of a concatenation of two 1024-wide pieces is the sum of the two pieces'
  contractions against the left and right halves of the weights.
-/
import proofs.«135022_g850403525219_cont_9to1_m_489_3_alg».proof.Proof.RefRead
import proofs.«135022_g850403525219_cont_9to1_m_489_3_alg».proof.Proof.Spec

noncomputable section

open scoped BigOperators

namespace Cert.ReferenceIdeal.RefValue

open Cert.ReferenceIdeal Cert.ReferenceIdeal.Gen Cert.ReferenceIdeal.ReadP Cert.Attn
open Idealize.ShloMosaic Idealize.ShloMosaic.ValueIdx

variable (x0 : (⟨S32x8x1024, .f32⟩ : BufTy).Contents (Elt Ideal)) (x1 : (⟨S32x2048x1024, .f32⟩ : BufTy).Contents (Elt Ideal))
  (x2 : (⟨S1024x1024, .f32⟩ : BufTy).Contents (Elt Ideal)) (x3 : (⟨S1024x2048, .f32⟩ : BufTy).Contents (Elt Ideal))

theorem neg_inf : Ideal.ofBits .f32 0xFF800000#32 = (⊥ : EReal) := by simp [Ideal.ofBits, Ideal.ieee]

/-! ## The stages' index maps at coordinates -/

theorem lidx_v0 (b : Fin 32) (t : Fin 8) (e d : Fin 1024) : lidx_main_v0 (ix3 b t e) d = ix3 b t d :=
  funext fun a => Fin.ext (by match a with | ⟨0, _⟩ => rfl | ⟨1, _⟩ => rfl | ⟨2, _⟩ => rfl)
theorem ridx_v0 (b : Fin 32) (t : Fin 8) (e d : Fin 1024) : ridx_main_v0 (ix3 b t e) d = ix2 e d :=
  funext fun a => Fin.ext (by match a with | ⟨0, _⟩ => rfl | ⟨1, _⟩ => rfl)
theorem lidx_v1 (b : Fin 32) (t : Fin 8) (s : Fin 2048) (e : Fin 1024) : lidx_main_v1 (ix3 b t s) e = ix3 b t e :=
  funext fun a => Fin.ext (by match a with | ⟨0, _⟩ => rfl | ⟨1, _⟩ => rfl | ⟨2, _⟩ => rfl)
theorem ridx_v1 (b : Fin 32) (t : Fin 8) (s : Fin 2048) (e : Fin 1024) : ridx_main_v1 (ix3 b t s) e = ix3 b s e :=
  funext fun a => Fin.ext (by match a with | ⟨0, _⟩ => rfl | ⟨1, _⟩ => rfl | ⟨2, _⟩ => rfl)
theorem idx_v34 (b : Fin 32) (t : Fin 8) (s : Fin 2048) : idx_main_call0_v3 (idx_main_call0_v4 (ix3 b t s)) = ix2 b t :=
  funext fun a => Fin.ext (by match a with | ⟨0, _⟩ => rfl | ⟨1, _⟩ => rfl)
theorem idx_v7 (b : Fin 32) (t : Fin 8) (s : Fin 2048) : idx_main_call0_v7 (ix2 b t) s = ix3 b t s :=
  funext fun a => Fin.ext (by match a with | ⟨0, _⟩ => rfl | ⟨1, _⟩ => rfl | ⟨2, _⟩ => rfl)
theorem idx_v810 (b : Fin 32) (t : Fin 8) (s : Fin 2048) : idx_main_call0_v8 (idx_main_call0_v10 (ix3 b t s)) = ix2 b t :=
  funext fun a => Fin.ext (by match a with | ⟨0, _⟩ => rfl | ⟨1, _⟩ => rfl)
theorem lidx_v4 (b : Fin 32) (t : Fin 8) (d : Fin 1024) (s : Fin 2048) : lidx_main_v4 (ix3 b t d) s = ix3 b t s :=
  funext fun a => Fin.ext (by match a with | ⟨0, _⟩ => rfl | ⟨1, _⟩ => rfl | ⟨2, _⟩ => rfl)
theorem ridx_v4 (b : Fin 32) (t : Fin 8) (d : Fin 1024) (s : Fin 2048) : ridx_main_v4 (ix3 b t d) s = ix3 b s d :=
  funext fun a => Fin.ext (by match a with | ⟨0, _⟩ => rfl | ⟨1, _⟩ => rfl | ⟨2, _⟩ => rfl)
theorem lidx_v6 (b : Fin 32) (t : Fin 8) (o : Fin 1024) (f : Fin 2048) : lidx_main_v6 (ix3 b t o) f = ix3 b t f :=
  funext fun a => Fin.ext (by match a with | ⟨0, _⟩ => rfl | ⟨1, _⟩ => rfl | ⟨2, _⟩ => rfl)
theorem ridx_v6 (b : Fin 32) (t : Fin 8) (o : Fin 1024) (f : Fin 2048) : ridx_main_v6 (ix3 b t o) f = ix2 o f :=
  funext fun a => Fin.ext (by match a with | ⟨0, _⟩ => rfl | ⟨1, _⟩ => rfl)

/-! ## The stages -/

theorem hid_ref (b : Fin 32) (t : Fin 8) (e : Fin 1024) : val_main_v0 (F := Ideal) x0 x2 (ix3 b t e) = hid x0 x2 b t e := by
  rw [val_main_v0_apply]
  show _ = ∑ d : Fin 1024, x0 (ix3 b t d) * x2 (ix2 e d)
  exact Finset.sum_congr rfl fun d _ => by rw [lidx_v0, ridx_v0]

theorem score_ref (b : Fin 32) (t : Fin 8) (s : Fin 2048) :
    val_main_v1 (F := Ideal) x0 x1 x2 (ix3 b t s) = score x0 x1 x2 b t s := by
  rw [val_main_v1_apply]
  show _ = ∑ e : Fin 1024, hid x0 x2 b t e * x1 (ix3 b s e)
  exact Finset.sum_congr rfl fun e _ => by rw [lidx_v1, ridx_v1, hid_ref]

theorem lift_row (h : S32x8x2048.Reduces [2] S32x8) (b : Fin 32) (t : Fin 8) (s : Fin 2048) : h.lift (ix2 b t) s = ix3 b t s :=
  funext fun a => Fin.ext (by match a with | ⟨0, _⟩ => rfl | ⟨1, _⟩ => rfl | ⟨2, _⟩ => rfl)

/-- The first maximum: the fold of max over a row, from minus infinity. -/
theorem rowmax0_ref (b : Fin 32) (t : Fin 8) :
    val_main_call0_v0 (F := Ideal) x0 x1 x2 (ix2 b t) = rowMax x0 x1 x2 b t := by
  have hR : S32x8x2048.Reduces [2] S32x8 := by decide
  unfold val_main_call0_v0
  refine (Host.reduce_eq_fold_single FloatOps.maximumf _ _ _ hR _ (ix2 b t)).trans ?_
  show (Finset.univ : Finset (Fin 2048)).fold max (Ideal.ofBits .f32 0xFF800000#32)
      (fun s => val_main_v1 (F := Ideal) x0 x1 x2 (hR.lift (ix2 b t) s)) = (Finset.univ : Finset (Fin 2048)).fold max ⊥ (score x0 x1 x2 b t)
  rw [neg_inf]
  exact congrArg (fun f : Fin 2048 → EReal => (Finset.univ : Finset (Fin 2048)).fold max ⊥ f)
    (funext fun s => (congrArg _ (lift_row hR b t s)).trans (score_ref x0 x1 x2 b t s))

/-- The second maximum, against minus infinity, changes nothing. -/
theorem rowmax_ref (b : Fin 32) (t : Fin 8) :
    val_main_call0_v2 (F := Ideal) x0 x1 x2 (ix2 b t) = rowMax x0 x1 x2 b t := by
  rw [val_main_call0_v2_apply, val_main_call0_v1_apply, val_main_call0_cst_0_apply, rowmax0_ref]
  show max (Ideal.ofBits .f32 0xFF800000#32) _ = _
  rw [neg_inf, max_bot_left]

theorem shifted_ref (b : Fin 32) (t : Fin 8) (s : Fin 2048) :
    val_main_call0_v5 (F := Ideal) x0 x1 x2 (ix3 b t s) = shifted x0 x1 x2 b t s := by
  rw [val_main_call0_v5_apply, score_ref, val_main_call0_v4_apply, val_main_call0_v3_apply, idx_v34, rowmax_ref]
  rfl

theorem exp_ref (b : Fin 32) (t : Fin 8) (s : Fin 2048) :
    val_main_call0_v6 (F := Ideal) x0 x1 x2 (ix3 b t s) = Ideal.exp (shifted x0 x1 x2 b t s) := by
  rw [val_main_call0_v6_apply, shifted_ref]
  rfl

theorem denom_ref (b : Fin 32) (t : Fin 8) :
    val_main_call0_v7 (F := Ideal) x0 x1 x2 (ix2 b t) = denom x0 x1 x2 b t := by
  rw [val_main_call0_v7_apply, val_main_call0_cst_1_apply]
  show Ideal.ofBits .f32 0x00000000#32 + _ = ∑ s : Fin 2048, Ideal.exp (shifted x0 x1 x2 b t s)
  rw [Ideal.ofBits_zero_f32, zero_add]
  exact Finset.sum_congr rfl fun s _ => by rw [idx_v7, exp_ref]

theorem alpha_ref (b : Fin 32) (t : Fin 8) (s : Fin 2048) :
    val_main_v3 (F := Ideal) x0 x1 x2 (ix3 b t s) = alphaLog x0 x1 x2 b t s := by
  rw [val_main_v3_apply, val_main_v2_apply, shifted_ref, val_main_call0_v10_apply, val_main_call0_v9_apply,
    val_main_call0_v8_apply, idx_v810, denom_ref]
  rfl

theorem ctx_ref (b : Fin 32) (t : Fin 8) (d : Fin 1024) :
    val_main_v4 (F := Ideal) x0 x1 x2 (ix3 b t d) = ctx x1 (alphaLog x0 x1 x2) b t d := by
  rw [val_main_v4_apply]
  show _ = ∑ s : Fin 2048, alphaLog x0 x1 x2 b t s * x1 (ix3 b s d)
  exact Finset.sum_congr rfl fun s _ => by rw [lidx_v4, ridx_v4, alpha_ref]

/-- The concatenation's first 1024 columns are the context rows … -/
theorem cat_left (b : Fin 32) (t : Fin 8) (d : Fin 1024) :
    val_main_v5 (F := Ideal) x0 x1 x2 (ix3 b t (Fin.castAdd 1024 d : Fin 2048)) = val_main_v4 (F := Ideal) x0 x1 x2 (ix3 b t d) := by
  unfold val_main_v5
  refine concatenate_pair_apply_left (t := S32x8x2048) (s₁ := S32x8x1024) (s₂ := S32x8x1024) 2 _ _ _ (ix3 b t (Fin.castAdd 1024 d : Fin 2048)) rfl (ix3 b t d) fun a => ?_
  match a with
  | ⟨0, _⟩ => rfl
  | ⟨1, _⟩ => rfl
  | ⟨2, _⟩ => rfl

/-- … and its last 1024 columns the query rows. -/
theorem cat_right (b : Fin 32) (t : Fin 8) (d : Fin 1024) :
    val_main_v5 (F := Ideal) x0 x1 x2 (ix3 b t (Fin.natAdd 1024 d : Fin 2048)) = x0 (ix3 b t d) := by
  unfold val_main_v5
  refine concatenate_pair_apply_right (t := S32x8x2048) (s₁ := S32x8x1024) (s₂ := S32x8x1024) 2 _ _ _ (ix3 b t (Fin.natAdd 1024 d : Fin 2048)) rfl rfl (ix3 b t d) (fun a ha => ?_) ?_
  · match a with
    | ⟨0, _⟩ => rfl
    | ⟨1, _⟩ => rfl
    | ⟨2, _⟩ => exact absurd rfl ha
  · show d.val + 1024 = 1024 + d.val
    exact Nat.add_comm _ _

theorem out_ref (b : Fin 32) (t : Fin 8) (o : Fin 1024) :
    val_main_v7 (F := Ideal) x0 x1 x2 x3 (ix3 b t o) = attn x0 x1 x3 (alphaLog x0 x1 x2) b t o := by
  rw [val_main_v7_apply, val_main_v6_apply]
  show Ideal.tanh (∑ f : Fin 2048, val_main_v5 (F := Ideal) x0 x1 x2 (lidx_main_v6 (ix3 b t o) f) * x3 (ridx_main_v6 (ix3 b t o) f))
    = Ideal.tanh ((∑ d : Fin 1024, ctx x1 (alphaLog x0 x1 x2) b t d * x3 (ix2 o (Fin.castAdd 1024 d)))
      + ∑ d : Fin 1024, x0 (ix3 b t d) * x3 (ix2 o (Fin.natAdd 1024 d)))
  refine congrArg Ideal.tanh ?_
  refine (Fin.sum_univ_add (a := 1024) (b := 1024)
    (fun f : Fin 2048 => val_main_v5 (F := Ideal) x0 x1 x2 (lidx_main_v6 (ix3 b t o) f) * x3 (ridx_main_v6 (ix3 b t o) f))).trans ?_
  refine congrArg₂ (· + ·) (Finset.sum_congr rfl fun d _ => ?_) (Finset.sum_congr rfl fun d _ => ?_)
  · rw [lidx_v6, ridx_v6, cat_left, ctx_ref]
  · rw [lidx_v6, ridx_v6, cat_right]

/-! ## The three results as whole arrays -/

theorem ref_scores : val_main_v1 (F := Ideal) x0 x1 x2 = scoresArr x0 x1 x2 := by
  funext i
  obtain ⟨b, t, s, rfl⟩ : ∃ (b : Fin 32) (t : Fin 8) (s : Fin 2048), i = ix3 b t s := ⟨i 0, i 1, i 2, eq_ix3 i⟩
  exact score_ref x0 x1 x2 b t s

theorem ref_weights : val_main_v3 (F := Ideal) x0 x1 x2 = alphaArr (alphaLog x0 x1 x2) := by
  funext i
  obtain ⟨b, t, s, rfl⟩ : ∃ (b : Fin 32) (t : Fin 8) (s : Fin 2048), i = ix3 b t s := ⟨i 0, i 1, i 2, eq_ix3 i⟩
  exact alpha_ref x0 x1 x2 b t s

theorem ref_out : val_main_v7 (F := Ideal) x0 x1 x2 x3 = attnArr x0 x1 x3 (alphaLog x0 x1 x2) := by
  funext i
  obtain ⟨b, t, o, rfl⟩ : ∃ (b : Fin 32) (t : Fin 8) (o : Fin 1024), i = ix3 b t o := ⟨i 0, i 1, i 2, eq_ix3 i⟩
  exact out_ref x0 x1 x2 x3 b t o

end Cert.ReferenceIdeal.RefValue

end
-- ==== Proof.Finite.lean ====
/-
  From the precondition to real-valued inputs.

  The precondition says, of each of the four float inputs, that every entry's absolute value is below plus infinity
  (a conjunction of four "all entries" reductions).  On the extended reals |x| < +inf says exactly that x is a real
  number: the absolute value of either infinity is plus infinity.
-/
import proofs.«135022_g850403525219_cont_9to1_m_489_3_alg».proof.Pre_finite_inputs
import proofs.«135022_g850403525219_cont_9to1_m_489_3_alg».proof.Proof.LibRealValued
import Idealize.ShloMosaic.Lib.ReduceAll
import Idealize.ShloMosaic.Lib.ValueIdx
import Idealize.ShloMosaic.Lib.Pipeline.Value

noncomputable section

namespace Cert.Finite

open Idealize.ShloMosaic Cert.RealValued Cert.Pre_finite_inputs

instance : Subsingleton S_.Idx := ⟨fun a b => funext fun d => d.elim0⟩

theorem pos_inf : Ideal.ofBits .f32 0x7F800000#32 = (⊤ : EReal) := by simp [Ideal.ofBits, Ideal.ieee]

/-- An extended real whose absolute value is below plus infinity is a real number. -/
theorem isReal_of_abs_lt_inf (x : EReal)
    (h : FloatOps.cmpf (F := Ideal) (φ := .f32) .olt (FloatOps.hostAbsf (F := Ideal) (φ := .f32) x) (Ideal.ofBits .f32 0x7F800000#32) = 1#1) :
    IsReal x := by
  have hlt : max x (-x) < ⊤ := by
    by_contra hn
    have h' : BitVec.ofBool (decide (max x (-x) < Ideal.ofBits .f32 0x7F800000#32)) = 1#1 := h
    rw [pos_inf, decide_eq_false hn] at h'
    exact absurd h' (by decide)
  induction x using EReal.rec with
  | bot => exact absurd hlt (by simp)
  | coe r => exact ⟨r, rfl⟩
  | top => exact absurd hlt (by simp)

/-- One "all entries are below plus infinity in absolute value" reduction gives a real-valued array. -/
theorem allReal_of_all {S : Shape} {axes : List (Fin S.rank)} (a : FVec Ideal S .f32) (dims : Fin 0 → Fin S.rank)
    (hb : S_.BroadcastsInDim S dims) (hr : S.ReducesTo axes S_) (hu : 0 < S_.numel)
    (h : Host.reduce IntOp.andi (cmpf .olt (Host.absf a) (broadcastInDim S dims hb (constant (F := Ideal) S_ .f32 0x7F800000#32)))
      (constantI S_ 1 1#1) hr hu ValueIdx.ix0 = 1#1) : AllReal a := by
  intro i
  have hi := Host.reduce_andi_all _ _ hr hu ValueIdx.ix0 h i
  have e : broadcastInDim S dims hb (constant (F := Ideal) S_ .f32 0x7F800000#32) i = Ideal.ofBits .f32 0x7F800000#32 :=
    broadcastInDim_apply dims hb _ i ValueIdx.ix0 (fun a => a.elim0)
  refine isReal_of_abs_lt_inf (a i) ?_
  rw [← e]
  exact hi

/-- The precondition of the certificate: all four inputs are real-valued. -/
theorem allReal_of_pre [Facts] (a0 : FVec Ideal S32x8x1024 .f32) (a1 : FVec Ideal S32x2048x1024 .f32)
    (a2 : FVec Ideal S1024x1024 .f32) (a3 : FVec Ideal S1024x2048 .f32)
    (h : fn (F := Ideal) a0 a1 a2 a3 = fun _ => 1#1) :
    AllReal a0 ∧ AllReal a1 ∧ AllReal a2 ∧ AllReal a3 := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨allReal_of_all a0 _ _ _ _ h0', allReal_of_all a1 _ _ _ _ h1, allReal_of_all a2 _ _ _ _ h2, allReal_of_all a3 _ _ _ _ h3⟩

end Cert.Finite

end
-- ==== Proof.lean ====
/-
  A fused attention layer against its plain reference, on the extended reals.

  The kernel computes, in three calls, the projected queries h = x Win^T; per batch the scores h M^T, their row
  softmax and the context softmax * M; and the output tanh (c Wl^T + x Wr^T) for the left and right column halves
  Wl, Wr of the output weights.  The reference computes the same projected queries and scores, takes the softmax as
  the exponential of the log-softmax, and contracts the concatenation of context and queries against the whole of
  the output weights.

  The two differ in two places.  The softmax: exp (a - m) / z against exp ((a - m) - log z), equal when the scores
  are real numbers (z is then a positive real), which is where the precondition "every input is finite" is used.
  And the last contraction: a sum over 2048 columns of a concatenation against the two sums over its 1024-column
  pieces, equal by associativity and commutativity of finite sums alone.

  The frames of the two kernel programs are the generated ones; the reference's frame is its run with the results
  dropped; the idealization rewrote nothing, so there is nothing to preserve.
-/
import proofs.«135022_g850403525219_cont_9to1_m_489_3_alg».proof.Defs
import proofs.«135022_g850403525219_cont_9to1_m_489_3_alg».proof.Proof.Gen.Kernel
import proofs.«135022_g850403525219_cont_9to1_m_489_3_alg».proof.Proof.Gen.Kernel.Frame
import proofs.«135022_g850403525219_cont_9to1_m_489_3_alg».proof.Proof.Gen.KernelIdeal
import proofs.«135022_g850403525219_cont_9to1_m_489_3_alg».proof.Proof.Gen.KernelIdeal.Frame
import proofs.«135022_g850403525219_cont_9to1_m_489_3_alg».proof.Proof.Gen.ReferenceIdeal
import proofs.«135022_g850403525219_cont_9to1_m_489_3_alg».proof.Proof.Gen.Pre_finite_inputs
import proofs.«135022_g850403525219_cont_9to1_m_489_3_alg».proof.Proof.KValue
import proofs.«135022_g850403525219_cont_9to1_m_489_3_alg».proof.Proof.RefRun
import proofs.«135022_g850403525219_cont_9to1_m_489_3_alg».proof.Proof.RefValue
import proofs.«135022_g850403525219_cont_9to1_m_489_3_alg».proof.Proof.Finite
import Idealize.ShloMosaic.Adequacy
import Idealize.ShloMosaic.Init

noncomputable section

namespace Cert.Proof

open Idealize.ShloMosaic Idealize.SL.Sem Cert.Attn

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.ValueP.run (F := Ideal) m ρ)

/-- From memories that agree on the four arguments and hold finite inputs, both idealized programs end with the
    layer's output, attention weights and scores of those arguments: the kernel with the weights in their quotient
    form, the reference in their logarithm form, one function on real-valued inputs. -/
theorem algebraic : Cert.algebraic_KernelIdeal_ReferenceIdeal := by
  intro m ρ m' ρ' hpre hagree
  refine ⟨_, _, _, Cert.KernelIdeal.Layer.run m ρ, ?_⟩
  refine (θ_run Cert.ReferenceIdeal.defs _ _).mono (fun r h c => ?_) (Cert.ReferenceIdeal.ValueP.run (F := Ideal) m' ρ')
  obtain ⟨h7, h3, h1, ha⟩ := h c
  obtain ⟨e0, e1, e2, e3⟩ := hagree c
  obtain ⟨r0, r1, r2, -⟩ := Cert.Finite.allReal_of_pre _ _ _ _ (hpre c)
  refine ⟨?_, ?_, ?_, ha⟩
  · refine h7.trans ((Cert.ReferenceIdeal.ReadP.val_main_v7_eq (F := Ideal) _ _ _ _).trans ?_)
    rw [Cert.ReferenceIdeal.RefValue.ref_out, e0, e1, e2, e3, alphaQuot_eq_alphaLog r0 r1 r2]
  · refine h3.trans ((Cert.ReferenceIdeal.ReadP.val_main_v3_eq (F := Ideal) _ _ _).trans ?_)
    rw [Cert.ReferenceIdeal.RefValue.ref_weights, e0, e1, e2, alphaQuot_eq_alphaLog r0 r1 r2]
  · refine h1.trans ((Cert.ReferenceIdeal.ReadP.val_main_v1_eq (F := Ideal) _ _ _).trans ?_)
    rw [Cert.ReferenceIdeal.RefValue.ref_scores, e0, e1, e2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
